-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S512x40 .f32) (main_arg11 : FVec F S40 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x40 .f32 := Host.absf main_arg10
  let main_cst_16 : FVec F S_ .f32 := constant S_ .f32 0x7F800000#32
  let main_v45 : FVec F S512x40 .f32 := broadcastInDim S512x40 ![] bcast_S_S512x40 main_cst_16
  let main_v46 : IVec S512x40 1 := cmpf .olt main_v44 main_v45
  let main_c_17 : IVec S_ 1 := constantI S_ 1 1#1
  let main_v47 : IVec S_ 1 := (fun x v => Host.reduce IntOp.andi x v reducesTo_S512x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S512x40 .f32) (main_arg11 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S512x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x40 : Shape := ⟨2, ![256, 40]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 58
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x40, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x256, .bf16⟩
  | .hbm, ⟨30, _⟩ => ⟨S256x256, .bf16⟩
  | .hbm, ⟨31, _⟩ => ⟨S1x256, .f32⟩
  | .hbm, ⟨32, _⟩ => ⟨S1x256, .f32⟩
  | .hbm, ⟨33, _⟩ => ⟨S50000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S256x256, .bf16⟩
  | .hbm, ⟨48, _⟩ => ⟨S256x256, .bf16⟩
  | .hbm, ⟨49, _⟩ => ⟨S1x256, .f32⟩
  | .hbm, ⟨50, _⟩ => ⟨S1x256, .f32⟩
  | .hbm, ⟨51, _⟩ => ⟨S50000x256, .f32⟩
  | .hbm, ⟨52, _⟩ => ⟨S256x40, .f32⟩
  | .hbm, ⟨53, _⟩ => ⟨S256x40, .bf16⟩
  | .hbm, ⟨54, _⟩ => ⟨S256x40, .f32⟩
  | .hbm, ⟨55, _⟩ => ⟨S256x40, .bf16⟩
  | .hbm, ⟨56, _⟩ => ⟨S1x40, .f32⟩
  | .hbm, ⟨57, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x40, .bf16⟩
  | .local _ .vmem, ⟨25, _⟩ => ⟨S256x40, .bf16⟩
  | .local _ .vmem, ⟨26, _⟩ => ⟨S1x40, .f32⟩
  | .local _ .vmem, ⟨27, _⟩ => ⟨S2000x40, .f32⟩
  | .local _ .vmem, ⟨28, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x40 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  slices_S512x40_S256x40_0_0 : S512x40.Slices ![0, 0] S256x40
  slices_S512x40_S256x40_256_0 : S512x40.Slices ![256, 0] S256x40
  shapeCasts_S40_S1x40 : S40.ShapeCasts S1x40
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x40.size a ≤ S256x40.size a
  hwx2_2 : ∀ i : grid2.Coords, EltTy.bits .bf16 = 32 ∨ (Rect.block (s := S256x40) S256x40.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x40.size a ≤ S256x40.size a
  hwx2_3 : ∀ i : grid2.Coords, EltTy.bits .bf16 = 32 ∨ (Rect.block (s := S256x40) S256x40.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S256x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S256x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x40, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x512, .f32⟩
  | .hbm, ⟨73, _⟩ => ⟨S50000x40, .f32⟩
  | .hbm, ⟨74, _⟩ => ⟨S1x40, .f32⟩
  | .hbm, ⟨75, _⟩ => ⟨S50000x40, .f32⟩
  | .hbm, ⟨76, _⟩ => ⟨S50000x40, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x40, .f32⟩
  | .hbm, ⟨84, _⟩ => ⟨S50000x40, .f32⟩
  | .hbm, ⟨85, _⟩ => ⟨S50000x40, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x1, .f32⟩
  | .hbm, ⟨90, _⟩ => ⟨S50000x40, .f32⟩
  | .hbm, ⟨91, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_call0_cst_0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_cst_1 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S50000x256_S50000x256_S50000x512_d1 : Shape.Concatenates [S50000x256, S50000x256] S50000x512 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x40_S50000x40_1_0_0_1_n_n_wf : DotDims.WF S50000x512 S512x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf

class Facts : Prop extends Facts₀ where

variable [Facts]
-- ==== Proof.KernelRun.lean ====
/-
  The kernel program's run with its result array named.

  The program runs as six segments — host stretch, region, host stretch, region, host stretch, region — and the
  library's theorem for such a program gives, for every weakly fair execution, termination without a fault and a
  final memory in which every buffer that outlives the regions holds the last boundary's contents `W6`. Read at the
  result buffer this is the result array; read at an argument it is the argument as launched (no stretch and no
  region writes one). The segments and the boundary contents are those of the imported generated frame module.
-/
import proofs.«170616_j85985245266464_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the twelve arguments end as launched. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Named

end
-- ==== Proof.KernelStages.lean ====
/-
  The kernel program's three stretches of host operations, read one by one.

  Before the first layer's region the host computes the neighbour sums of the input features (the same gather and
  scatter-add over the edge list as the reference: `agg128`), narrows the two weight matrices and lays the two biases
  out as rows; before the second region the same for the first layer's output (`agg256`) and the second layer's
  weights; before the classifier it cuts the `[512, 40]` matrix into its upper and lower halves and lays the bias out
  as a row. Each stretch writes its own buffers and leaves every other buffer alone.
-/
import proofs.«170616_j85985245266464_1_alg».proof.Proof.Gen.KernelIdeal.Launch
import Idealize.ShloMosaic.Lib.StableHlo.Run
import Idealize.ShloMosaic.PureOps.Ideal

noncomputable section

namespace Cert.KernelIdeal.Stage

open Cert.KernelIdeal Cert.KernelIdeal.Gen Idealize.ShloMosaic Idealize.ShloMosaic.TcCoe Idealize.SL.Sem Idealize.ShloMosaic.StableHlo

/-! ## The values -/

/-- The edges' sources: row 0 of the edge list. -/
def srcOf (ei : IVec S2x800000 32) : IVec S800000 32 :=
  shapeCast S800000 (extractStridedSlice S1x800000 ![0, 0] ei slices_S2x800000_S1x800000_0_0) shapeCasts_S1x800000_S800000
/-- The edges' destinations: row 1 of the edge list. -/
def dstOf (ei : IVec S2x800000 32) : IVec S800000 32 :=
  shapeCast S800000 (extractStridedSlice S1x800000 ![1, 0] ei slices_S2x800000_S1x800000_1_0) shapeCasts_S1x800000_S800000
/-- The sources as a column of gather indices, a negative one wrapped by the node count. -/
def wrapCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour sums of a `[50000, 128]` array over the edge list: the rows at the (wrapped) sources gathered and added
    into the rows at the destinations, from zero. -/
def agg128 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x (wrapCol src))

/-- The neighbour sums of a `[50000, 256]` array over the edge list: the rows at the (wrapped) sources gathered and added
    into the rows at the destinations, from zero. -/
def agg256 (x : FVec Ideal S50000x256 .f32) (src dst : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 x (wrapCol src))

/-! ## What each stretch writes, and what it leaves -/

/-- The buffers `host0` writes. -/
abbrev host0_W : List (Ref sig .tc) := [main_v0, main_v1, main_v2, main_v3, main_c, main_v4, main_v5, main_c_0, main_v6, main_v7, main_v8, main_v9, main_v10, main_cst, main_v11, main_v12, main_v13, main_v14, main_v15, main_v16, main_v17]
theorem host0_writes : (hostOps0 : List (HloOp τ sig (Elt Ideal))).Forall fun op =>
    op.writes ⊆ (host0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem host0_keep (V : Valuation τ sig (Elt Ideal)) (r : Ref sig .tc) (h : r ∉ host0_W) :
    after hostOps0 V (Proc.devRef .tc r) = V (Proc.devRef .tc r) :=
  after_of_writes_sub hostOps0 V host0_writes h

/-- The buffers `host1` writes. -/
abbrev host1_W : List (Ref sig .tc) := [main_c_1, main_v19, main_v20, main_c_2, main_v21, main_v22, main_v23, main_v24, main_v25, main_cst_3, main_v26, main_v27, main_v28, main_v29, main_v30, main_v31, main_v32]
theorem host1_writes : (hostOps1 : List (HloOp τ sig (Elt Ideal))).Forall fun op =>
    op.writes ⊆ (host1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem host1_keep (V : Valuation τ sig (Elt Ideal)) (r : Ref sig .tc) (h : r ∉ host1_W) :
    after hostOps1 V (Proc.devRef .tc r) = V (Proc.devRef .tc r) :=
  after_of_writes_sub hostOps1 V host1_writes h

/-- The buffers `host2` writes. -/
abbrev host2_W : List (Ref sig .tc) := [main_v34, main_v35, main_v36, main_v37, main_v38]
theorem host2_writes : (hostOps2 : List (HloOp τ sig (Elt Ideal))).Forall fun op =>
    op.writes ⊆ (host2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem host2_keep (V : Valuation τ sig (Elt Ideal)) (r : Ref sig .tc) (h : r ∉ host2_W) :
    after hostOps2 V (Proc.devRef .tc r) = V (Proc.devRef .tc r) :=
  after_of_writes_sub hostOps2 V host2_writes h

/-! ## Each stretch's results -/

section Results

variable (V : Valuation τ sig (Elt Ideal))

theorem host0_src : after hostOps0 V (Proc.devRef .tc main_v1) = srcOf (V (Proc.devRef .tc main_arg1)) := by
  unfold hostOps0; after_results <;> rfl
theorem host0_dst : after hostOps0 V (Proc.devRef .tc main_v3) = dstOf (V (Proc.devRef .tc main_arg1)) := by
  unfold hostOps0; after_results <;> rfl
theorem host0_agg : after hostOps0 V (Proc.devRef .tc main_v13)
    = agg128 (V (Proc.devRef .tc main_arg0)) (srcOf (V (Proc.devRef .tc main_arg1))) (dstOf (V (Proc.devRef .tc main_arg1))) := by
  unfold hostOps0; after_results <;> rfl
theorem host0_W1 : after hostOps0 V (Proc.devRef .tc main_v14)
    = (truncf (F := Ideal) .bf16 (V (Proc.devRef .tc main_arg2) : FVec Ideal S128x256 .f32) bitsLt_bf16_f32 : FVec Ideal S128x256 .bf16) := by
  unfold hostOps0; after_results <;> rfl
theorem host0_W2 : after hostOps0 V (Proc.devRef .tc main_v15)
    = (truncf (F := Ideal) .bf16 (V (Proc.devRef .tc main_arg4) : FVec Ideal S256x256 .f32) bitsLt_bf16_f32 : FVec Ideal S256x256 .bf16) := by
  unfold hostOps0; after_results <;> rfl
theorem host0_b1 : after hostOps0 V (Proc.devRef .tc main_v16) = shapeCast S1x256 (V (Proc.devRef .tc main_arg3)) shapeCasts_S256_S1x256 := by
  unfold hostOps0; after_results <;> rfl
theorem host0_b2 : after hostOps0 V (Proc.devRef .tc main_v17) = shapeCast S1x256 (V (Proc.devRef .tc main_arg5)) shapeCasts_S256_S1x256 := by
  unfold hostOps0; after_results <;> rfl

theorem host1_agg : after hostOps1 V (Proc.devRef .tc main_v28)
    = agg256 (V (Proc.devRef .tc main_v18)) (V (Proc.devRef .tc main_v1)) (V (Proc.devRef .tc main_v3)) := by
  unfold hostOps1; after_results <;> rfl
theorem host1_W1 : after hostOps1 V (Proc.devRef .tc main_v29)
    = (truncf (F := Ideal) .bf16 (V (Proc.devRef .tc main_arg6) : FVec Ideal S256x256 .f32) bitsLt_bf16_f32 : FVec Ideal S256x256 .bf16) := by
  unfold hostOps1; after_results <;> rfl
theorem host1_W2 : after hostOps1 V (Proc.devRef .tc main_v30)
    = (truncf (F := Ideal) .bf16 (V (Proc.devRef .tc main_arg8) : FVec Ideal S256x256 .f32) bitsLt_bf16_f32 : FVec Ideal S256x256 .bf16) := by
  unfold hostOps1; after_results <;> rfl
theorem host1_b1 : after hostOps1 V (Proc.devRef .tc main_v31) = shapeCast S1x256 (V (Proc.devRef .tc main_arg7)) shapeCasts_S256_S1x256 := by
  unfold hostOps1; after_results <;> rfl
theorem host1_b2 : after hostOps1 V (Proc.devRef .tc main_v32) = shapeCast S1x256 (V (Proc.devRef .tc main_arg9)) shapeCasts_S256_S1x256 := by
  unfold hostOps1; after_results <;> rfl

theorem host2_Wa : after hostOps2 V (Proc.devRef .tc main_v35)
    = (truncf (F := Ideal) .bf16 (extractStridedSlice S256x40 ![0, 0] (V (Proc.devRef .tc main_arg10) : FVec Ideal S512x40 .f32)
        slices_S512x40_S256x40_0_0 : FVec Ideal S256x40 .f32) bitsLt_bf16_f32 : FVec Ideal S256x40 .bf16) := by
  unfold hostOps2; after_results <;> rfl
theorem host2_Wb : after hostOps2 V (Proc.devRef .tc main_v37)
    = (truncf (F := Ideal) .bf16 (extractStridedSlice S256x40 ![256, 0] (V (Proc.devRef .tc main_arg10) : FVec Ideal S512x40 .f32)
        slices_S512x40_S256x40_256_0 : FVec Ideal S256x40 .f32) bitsLt_bf16_f32 : FVec Ideal S256x40 .bf16) := by
  unfold hostOps2; after_results <;> rfl
theorem host2_b : after hostOps2 V (Proc.devRef .tc main_v38) = shapeCast S1x40 (V (Proc.devRef .tc main_arg11)) shapeCasts_S40_S1x40 := by
  unfold hostOps2; after_results <;> rfl

end Results

end Cert.KernelIdeal.Stage

end
-- ==== Proof.Spec.lean ====
/-
  The mathematics of a two-layer graph isomorphism network with a linear classifier and a row-wise log-softmax, on
  the extended reals, entry by entry.

  A node's row `z` (its own features plus the sum of its in-neighbours' features) goes through two dense layers,
  each an affine map followed by a clamp at zero: `dense z W β j = max (Σ_e z_e · W_{e j} + β_j) 0`, and
  `mlp = dense ∘ dense`. A layer of the network applies `mlp` to every row of `h + agg` (`layer`).
  The classifier takes the two layers' outputs `h1`, `h2` of a node side by side and contracts them with a
  `[512, 40]` matrix: its rows `0 … 255` (`Wa`) meet `h1`, its rows `256 … 511` (`Wb`) meet `h2` (`logits`); then each
  row is shifted by its maximum and normalised by the logarithm of the sum of the exponentials (`logSoftmaxRow`).
  The zero of the clamp and the minus infinity the maximum starts from are kept as the words the programs print.
-/
import Idealize.ShloMosaic.Lib.ValueIdx
import Idealize.ShloMosaic.PureOps.Ideal.Laws

noncomputable section

namespace Cert.Gin

open Idealize.ShloMosaic Idealize.ShloMosaic.ValueIdx

/-- The word of `0.0` read as an extended real. -/
abbrev zeroWord : EReal := Ideal.ofBits .f32 0x00000000#32
/-- The word of `-inf` read as an extended real. -/
abbrev negInfWord : EReal := Ideal.ofBits .f32 0xFF800000#32

/-- One dense layer's entry `j`: the affine map of the row `z`, clamped at zero. -/
def dense {k b : ℕ} (z : Fin k → EReal) (W : (⟨2, ![k, b]⟩ : Shape).Idx → EReal) (β : Fin b → EReal) (j : Fin b) : EReal :=
  max (∑ e : Fin k, z e * W (ix2 e j) + β j) zeroWord

/-- Two dense layers in a row. -/
def mlp {k : ℕ} (z : Fin k → EReal) (W1 : (⟨2, ![k, 256]⟩ : Shape).Idx → EReal) (β1 : Fin 256 → EReal)
    (W2 : (⟨2, ![256, 256]⟩ : Shape).Idx → EReal) (β2 : Fin 256 → EReal) (j : Fin 256) : EReal :=
  dense (fun e => dense z W1 β1 e) W2 β2 j

/-- A network layer at node `p`, output feature `q`: `mlp` of the row `h_p + agg_p`. The biases are given by feature. -/
def layerAt {n k : ℕ} (h agg : (⟨2, ![n, k]⟩ : Shape).Idx → EReal) (W1 : (⟨2, ![k, 256]⟩ : Shape).Idx → EReal)
    (β1 : Fin 256 → EReal) (W2 : (⟨2, ![256, 256]⟩ : Shape).Idx → EReal) (β2 : Fin 256 → EReal)
    (p : Fin n) (q : Fin 256) : EReal :=
  mlp (fun l => h (ix2 p l) + agg (ix2 p l)) W1 β1 W2 β2 q

/-- The layer as an array. -/
def layer {n k : ℕ} (h agg : (⟨2, ![n, k]⟩ : Shape).Idx → EReal) (W1 : (⟨2, ![k, 256]⟩ : Shape).Idx → EReal)
    (β1 : Fin 256 → EReal) (W2 : (⟨2, ![256, 256]⟩ : Shape).Idx → EReal) (β2 : Fin 256 → EReal) :
    (⟨2, ![n, 256]⟩ : Shape).Idx → EReal :=
  fun i => layerAt h agg W1 β1 W2 β2 (i 0) (i 1)

theorem layer_ix2 {n k : ℕ} (h agg : (⟨2, ![n, k]⟩ : Shape).Idx → EReal) (W1 : (⟨2, ![k, 256]⟩ : Shape).Idx → EReal)
    (β1 : Fin 256 → EReal) (W2 : (⟨2, ![256, 256]⟩ : Shape).Idx → EReal) (β2 : Fin 256 → EReal)
    (p : Fin n) (q : Fin 256) :
    layer h agg W1 β1 W2 β2 (ix2 p q) = layerAt h agg W1 β1 W2 β2 p q := rfl

/-- The classifier's logit of node `p`, class `q`: `h1_p` against the upper half `Wa` of the `[512, 40]` matrix plus
    `h2_p` against its lower half `Wb`, plus the bias. -/
def logits {n : ℕ} (h1 h2 : (⟨2, ![n, 256]⟩ : Shape).Idx → EReal) (Wa Wb : (⟨2, ![256, 40]⟩ : Shape).Idx → EReal)
    (β : Fin 40 → EReal) (p : Fin n) (q : Fin 40) : EReal :=
  (∑ e : Fin 256, h1 (ix2 p e) * Wa (ix2 e q) + ∑ e : Fin 256, h2 (ix2 p e) * Wb (ix2 e q)) + β q

/-- A row's log-softmax: shift by the row's maximum, subtract the logarithm of the sum of the exponentials. -/
def logSoftmaxRow (x : Fin 40 → EReal) (q : Fin 40) : EReal :=
  (x q - (Finset.univ : Finset (Fin 40)).fold max negInfWord x)
    - Ideal.log (∑ d : Fin 40, Ideal.exp (x d - (Finset.univ : Finset (Fin 40)).fold max negInfWord x))

/-- The classifier at node `p`, class `q`. -/
def classifyAt {n : ℕ} (h1 h2 : (⟨2, ![n, 256]⟩ : Shape).Idx → EReal) (Wa Wb : (⟨2, ![256, 40]⟩ : Shape).Idx → EReal)
    (β : Fin 40 → EReal) (p : Fin n) (q : Fin 40) : EReal :=
  logSoftmaxRow (fun d => logits h1 h2 Wa Wb β p d) q

/-- The classifier as an array. -/
def classify {n : ℕ} (h1 h2 : (⟨2, ![n, 256]⟩ : Shape).Idx → EReal) (Wa Wb : (⟨2, ![256, 40]⟩ : Shape).Idx → EReal)
    (β : Fin 40 → EReal) : (⟨2, ![n, 40]⟩ : Shape).Idx → EReal :=
  fun i => classifyAt h1 h2 Wa Wb β (i 0) (i 1)

theorem classify_ix2 {n : ℕ} (h1 h2 : (⟨2, ![n, 256]⟩ : Shape).Idx → EReal) (Wa Wb : (⟨2, ![256, 40]⟩ : Shape).Idx → EReal)
    (β : Fin 40 → EReal) (p : Fin n) (q : Fin 40) :
    classify h1 h2 Wa Wb β (ix2 p q) = classifyAt h1 h2 Wa Wb β p q := rfl

/-- The maximum started from minus infinity is the maximum. -/
theorem max_negInfWord (y : EReal) : max negInfWord y = y := by
  show max (Ideal.ofBits .f32 0xFF800000#32) y = y
  simp [Ideal.ofBits, Ideal.ieee]

/-- A sum started from the zero word is the sum. -/
theorem zeroWord_add (y : EReal) : zeroWord + y = y := by
  show Ideal.ofBits .f32 0x00000000#32 + y = y
  rw [Ideal.ofBits_zero_f32, zero_add]

end Cert.Gin

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibDense.lean ====
/-
  An affine layer followed by a clamp at zero, read at an entry given by its coordinates, for any extents:
  `max (Σ_e x_{p e} · W_{e q} + β_q) 0`, on the extended reals, in the two spellings programs print.

  * The vector unit's: a plain product `[a, k] × [k, b]` into a zero accumulator, plus a `[1, b]` row broadcast down the
    rows, then the maximum with a splat of the zero word (`vector_dense_apply`).
  * The host's: a plain `dot_general`, plus a `[b]` vector placed as a row and broadcast down the rows, then the
    maximum with the zero word broadcast from a scalar (`host_dense_apply`).
  Neither needs any finiteness: nothing is rearranged.
-/
import proofs.«170616_j85985245266464_1_alg».proof.Proof.LibRowMax
import Idealize.ShloMosaic.Lib.ValueLayout
import Idealize.ShloMosaic.Lib.Pipeline.Value
import Idealize.ShloMosaic.PureOps.Ideal.Laws

noncomputable section

namespace Cert.LibDense

open Idealize.ShloMosaic Idealize.ShloMosaic.ValueIdx Cert.LibRowMax

variable {a k b : ℕ} {φ₁ φ₂ : FTy}

/-- The vector unit's affine layer with clamp, at `(p, q)`. The weight matrix and the bias row come through identity
    casts, as a kernel body loads them. -/
theorem vector_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨2, ![1, b]⟩ .f32)
    (hW : (⟨2, ![k, b]⟩ : Shape).ShapeCasts ⟨2, ![k, b]⟩) (hβ : (⟨2, ![1, b]⟩ : Shape).ShapeCasts ⟨2, ![1, b]⟩)
    (hbc : (⟨2, ![1, b]⟩ : Shape).Broadcasts ⟨2, ![a, b]⟩) (p : Fin a) (q : Fin b) :
    maximumf (addf (matmul D none x (shapeCast ⟨2, ![k, b]⟩ W hW) (constant ⟨2, ![a, b]⟩ .f32 0x00000000#32))
        (broadcastTo ⟨2, ![a, b]⟩ (shapeCast ⟨2, ![1, b]⟩ β hβ) hbc))
      (broadcast ⟨2, ![a, b]⟩ (Scalar.ofBits (F := Ideal) .f32 0x00000000#32)) (ix2 p q)
    = max (∑ e : Fin k, x (ix2 p e) * W (ix2 e q) + β (ix2 (0 : Fin 1) q)) (Ideal.ofBits .f32 0x00000000#32) := by
  subst hD
  rw [shapeCast_self, shapeCast_self]
  show max (FloatOps.matmul (plainDims a k b wf) none x W (constant ⟨2, ![a, b]⟩ .f32 0x00000000#32) (ix2 p q)
      + broadcastTo ⟨2, ![a, b]⟩ β hbc (ix2 p q)) (Ideal.ofBits .f32 0x00000000#32) = _
  rw [matmul_plain_apply wf none x W p q, broadcastTo_1b_ab_apply β hbc p q]

/-- The host's affine layer with clamp, at `(p, q)`. -/
theorem host_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf (Host.dotGeneral D none x W)
        (broadcastInDim ⟨2, ![a, b]⟩ ![0, 1] h2 (broadcastInDim ⟨2, ![1, b]⟩ ![1] h1 β)))
      (broadcastInDim ⟨2, ![a, b]⟩ ![] h0 (constant (F := Ideal) ⟨0, ![]⟩ .f32 0x00000000#32)) (ix2 p q)
    = max (∑ e : Fin k, x (ix2 p e) * W (ix2 e q) + β (ix1 q)) (Ideal.ofBits .f32 0x00000000#32) := by
  subst hD
  have hz : broadcastInDim ⟨2, ![a, b]⟩ ![] h0 (constant (F := Ideal) ⟨0, ![]⟩ .f32 0x00000000#32) (ix2 p q)
      = Ideal.ofBits .f32 0x00000000#32 :=
    broadcastInDim_apply _ h0 _ (ix2 p q) ix0 (fun ax => ax.elim0)
  show max (FloatOps.dotGeneral (plainDims a k b wf) none _ x W (ix2 p q)
      + broadcastInDim ⟨2, ![a, b]⟩ ![0, 1] h2 (broadcastInDim ⟨2, ![1, b]⟩ ![1] h1 β) (ix2 p q))
      (broadcastInDim ⟨2, ![a, b]⟩ ![] h0 (constant (F := Ideal) ⟨0, ![]⟩ .f32 0x00000000#32) (ix2 p q)) = _
  rw [hz, dotGeneral_plain_apply wf none _ x W p q, broadcastInDim_1b_ab_apply _ h2 p q,
    broadcastInDim_b_1b_apply β h1 (0 : Fin 1) q]

end Cert.LibDense

end
-- ==== Proof.BodyGin.lean ====
/-
  The two graph-layer kernel bodies, read at an entry of the output block.

  Each body adds the node block and the aggregated-neighbour block, and sends every row through two affine layers with
  a clamp at zero (the narrowing to a shorter float format between them is the identity on the extended reals).
  So entry `(p, q)` of the block the body stores is `mlp` of row `p` of the sum, with the weight matrices as loaded and
  the bias rows read at their one row. The first layer's kernel has 128 input features, the second's 256.
-/
import proofs.«170616_j85985245266464_1_alg».proof.Proof.Gen.KernelIdeal.Skeleton
import proofs.«170616_j85985245266464_1_alg».proof.Proof.Spec
import proofs.«170616_j85985245266464_1_alg».proof.Proof.LibDense

noncomputable section

namespace Cert.KernelIdeal.Body

open Cert.KernelIdeal Cert.KernelIdeal.Gen Idealize.ShloMosaic Idealize.ShloMosaic.ValueIdx Cert.Gin Cert.LibDense

/-- The first layer's body at `(p, q)`. -/
theorem gin0_apply (x0 x1 : FVec Ideal S2000x128 .f32) (x2 : FVec Ideal S128x256 .bf16) (x3 : FVec Ideal S1x256 .f32)
    (x4 : FVec Ideal S256x256 .bf16) (x5 : FVec Ideal S1x256 .f32) (p : Fin 2000) (q : Fin 256) :
    k0_pay1 (F := Ideal) x0 x1 x2 x3 x4 x5 (ix2 p q)
      = mlp (fun l => x0 (ix2 p l) + x1 (ix2 p l)) x2 (fun e => x3 (ix2 (0 : Fin 1) e)) x4
          (fun e => x5 (ix2 (0 : Fin 1) e)) q := by
  unfold k0_pay1
  refine (vector_dense_apply dot_S2000x256_S256x256_S2000x256_1_0_0_1_n_n
    dot_S2000x256_S256x256_S2000x256_1_0_0_1_n_n_wf rfl _ x4 x5 _ _ _ p q).trans ?_
  unfold mlp dense
  refine congrArg (fun f : Fin 256 → EReal => max (∑ e : Fin 256, f e * x4 (ix2 e q) + x5 (ix2 (0 : Fin 1) q)) zeroWord)
    (funext fun e => ?_)
  refine (vector_dense_apply dot_S2000x128_S128x256_S2000x256_1_0_0_1_n_n
    dot_S2000x128_S128x256_S2000x256_1_0_0_1_n_n_wf rfl _ x2 x3 _ _ _ p e).trans ?_
  rw [shapeCast_self]
  rfl

/-- The second layer's body at `(p, q)`. -/
theorem gin1_apply (x0 x1 : FVec Ideal S2000x256 .f32) (x2 : FVec Ideal S256x256 .bf16) (x3 : FVec Ideal S1x256 .f32)
    (x4 : FVec Ideal S256x256 .bf16) (x5 : FVec Ideal S1x256 .f32) (p : Fin 2000) (q : Fin 256) :
    k1_pay1 (F := Ideal) x0 x1 x2 x3 x4 x5 (ix2 p q)
      = mlp (fun l => x0 (ix2 p l) + x1 (ix2 p l)) x2 (fun e => x3 (ix2 (0 : Fin 1) e)) x4
          (fun e => x5 (ix2 (0 : Fin 1) e)) q := by
  unfold k1_pay1
  refine (vector_dense_apply dot_S2000x256_S256x256_S2000x256_1_0_0_1_n_n
    dot_S2000x256_S256x256_S2000x256_1_0_0_1_n_n_wf rfl _ x4 x5 _ _ _ p q).trans ?_
  unfold mlp dense
  refine congrArg (fun f : Fin 256 → EReal => max (∑ e : Fin 256, f e * x4 (ix2 e q) + x5 (ix2 (0 : Fin 1) q)) zeroWord)
    (funext fun e => ?_)
  refine (vector_dense_apply dot_S2000x256_S256x256_S2000x256_1_0_0_1_n_n
    dot_S2000x256_S256x256_S2000x256_1_0_0_1_n_n_wf rfl _ x2 x3 _ _ _ p e).trans ?_
  rw [shapeCast_self, shapeCast_self]
  rfl

end Cert.KernelIdeal.Body

end
-- ==== Proof.Region0.lean ====
/-
  Region 0 of the program (the first graph layer): from blocks to the whole array.

  The grid has 25 points; point `t` reads rows `2000·t … 2000·t + 1999` of the node array and of the aggregated array,
  the whole of both weight matrices and both bias rows, and writes the same rows of the output. Since entry `(p, q)` of a
  block depends only on row `p` of the two row blocks, what point `t` writes back is block `t` of ONE array, `layer` of
  the arrays as the region finds them; the 25 blocks tile the 50000 rows (row `r` lies in block `r / 2000`), so the
  output array ends at that function whatever the entry contents `V` are.
-/
import proofs.«170616_j85985245266464_1_alg».proof.Proof.Gen.KernelIdeal.Frame
import proofs.«170616_j85985245266464_1_alg».proof.Proof.BodyGin
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row windows and the output move with the point, the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row of the output is some point's. -/
theorem idx_onto : ∀ r : Fin 25, ∃ t : Fin cfg0.N, win0_6.index t = ![r.val, 0] :=
  (by decide +kernel : ∀ r : Fin 25, ∃ t : Fin grid0.N, win0_6.index t = ![r.val, 0])

/-- What the region leaves in its output array: the layer of the arrays as the region finds them. -/
abbrev out (c : Dev nD) : S50000x256.Idx → EReal :=
  layer (V c main_arg0) (V c main_v13) (V c main_v14) (fun e => V c main_v16 (ix2 (0 : Fin 1) e))
    (V c main_v15) (fun e => V c main_v17 (ix2 (0 : Fin 1) e))

/-- What point `t` writes back is block `t` of `out`. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero origin]
  simp only [View.ld_unit_zero (S := S2000x128) origin, View.ld_unit_zero (S := S128x256) origin,
    View.ld_unit_zero (S := S1x256) origin, View.ld_unit_zero (S := S256x256) origin]
  obtain ⟨e00, e01, e10, e11, e20, e21, e30, e31, e40, e41, e50, e51, e60, e61⟩ := idx_facts t
  have hN : grid0.N = 25 := N_0
  have ht : t.val < grid0.N := t.isLt
  funext j
  obtain ⟨p, q, rfl⟩ : ∃ (p : Fin 2000) (q : Fin 256), j = ix2 p q := ⟨j 0, j 1, eq_ix2 j⟩
  have hp : p.val < 2000 := p.isLt
  refine (Body.gin0_apply (iblk0 V c 0 t) (iblk0 V c 1 t) (iblk0 V c 2 t) (iblk0 V c 3 t) (iblk0 V c 4 t)
    (iblk0 V c 5 t) p q).trans ?_
  have hn : t.val * 2000 + p.val < 50000 := by omega
  have he : ((cfg0.win 6).blk t).view.emb (ix2 p q) = ix2 (⟨t.val * 2000 + p.val, hn⟩ : Fin 50000) q := by
    funext a; apply Fin.ext
    match a with
    | ⟨0, _⟩ => show win0_6.index t (0 : Fin 2) * 2000 + 1 * p.val = t.val * 2000 + p.val; rw [e60]; omega
    | ⟨1, _⟩ => show win0_6.index t (1 : Fin 2) * 256 + 1 * q.val = q.val; rw [e61]; omega
  have h0 : ∀ l : Fin 128, iblk0 V c 0 t (ix2 p l) = V c main_arg0 (ix2 (⟨t.val * 2000 + p.val, hn⟩ : Fin 50000) l) := fun l => by
    show V c main_arg0 (((cfg0.win 0).blk t).view.emb (ix2 p l)) = _
    refine congrArg (V c main_arg0) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * l.val = l.val; rw [e01]; omega
  have h1 : ∀ l : Fin 128, iblk0 V c 1 t (ix2 p l) = V c main_v13 (ix2 (⟨t.val * 2000 + p.val, hn⟩ : Fin 50000) l) := fun l => by
    show V c main_v13 (((cfg0.win 1).blk t).view.emb (ix2 p l)) = _
    refine congrArg (V c main_v13) (funext fun a => Fin.ext ?_)
    match a with
    | ⟨0, _⟩ => show win0_1.index t (0 : Fin 2) * 2000 + 1 * p.val = t.val * 2000 + p.val; rw [e10]; omega
    | ⟨1, _⟩ => show win0_1.index t (1 : Fin 2) * 128 + 1 * l.val = l.val; rw [e11]; omega
  have h2 : iblk0 V c 2 t = V c main_v14 := funext fun y => by
    show V c main_v14 (((cfg0.win 2).blk t).view.emb y) = _
    refine congrArg (V c main_v14) (funext fun a => Fin.ext ?_)
    match a with
    | ⟨0, _⟩ => show win0_2.index t (0 : Fin 2) * 128 + 1 * (y 0).val = (y 0).val; rw [e20]; omega
    | ⟨1, _⟩ => show win0_2.index t (1 : Fin 2) * 256 + 1 * (y 1).val = (y 1).val; rw [e21]; omega
  have h3 : iblk0 V c 3 t = V c main_v16 := funext fun y => by
    show V c main_v16 (((cfg0.win 3).blk t).view.emb y) = _
    refine congrArg (V c main_v16) (funext fun a => Fin.ext ?_)
    match a with
    | ⟨0, _⟩ => show win0_3.index t (0 : Fin 2) * 1 + 1 * (y 0).val = (y 0).val; rw [e30]; omega
    | ⟨1, _⟩ => show win0_3.index t (1 : Fin 2) * 256 + 1 * (y 1).val = (y 1).val; rw [e31]; omega
  have h4 : iblk0 V c 4 t = V c main_v15 := funext fun y => by
    show V c main_v15 (((cfg0.win 4).blk t).view.emb y) = _
    refine congrArg (V c main_v15) (funext fun a => Fin.ext ?_)
    match a with
    | ⟨0, _⟩ => show win0_4.index t (0 : Fin 2) * 256 + 1 * (y 0).val = (y 0).val; rw [e40]; omega
    | ⟨1, _⟩ => show win0_4.index t (1 : Fin 2) * 256 + 1 * (y 1).val = (y 1).val; rw [e41]; omega
  have h5 : iblk0 V c 5 t = V c main_v17 := funext fun y => by
    show V c main_v17 (((cfg0.win 5).blk t).view.emb y) = _
    refine congrArg (V c main_v17) (funext fun a => Fin.ext ?_)
    match a with
    | ⟨0, _⟩ => show win0_5.index t (0 : Fin 2) * 1 + 1 * (y 0).val = (y 0).val; rw [e50]; omega
    | ⟨1, _⟩ => show win0_5.index t (1 : Fin 2) * 256 + 1 * (y 1).val = (y 1).val; rw [e51]; omega
  show _ = out V c (((cfg0.win 6).blk t).view.emb (ix2 p q))
  rw [he, h2, h3, h4, h5]
  simp only [h0, h1]
  rfl

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v18).slice (win0_6.rect t)).set ↔ _
  rw [View.set_slice_whole, Rect.mem_set_unit]
  exact Iff.rfl

/-- The blocks tile the array: row `r` is in the block of point `r / 2000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

/-- The output array after the region: `out`. -/
theorem final (c : Dev nD) : (dat0 V c).arrAt 6 cfg0.N = out V c :=
  (dat0 V c).arrAt_eq_of_cover 6 (out V c) (fun t _ => flushed_eq V c t) (cover)

end Cert.KernelIdeal.Region0

end
-- ==== Proof.Region1.lean ====
/-
  Region 1 of the program (the second graph layer): from blocks to the whole array.

  The grid has 25 points; point `t` reads rows `2000·t … 2000·t + 1999` of the node array and of the aggregated array,
  the whole of both weight matrices and both bias rows, and writes the same rows of the output. Since entry `(p, q)` of a
  block depends only on row `p` of the two row blocks, what point `t` writes back is block `t` of ONE array, `layer` of
  the arrays as the region finds them; the 25 blocks tile the 50000 rows (row `r` lies in block `r / 2000`), so the
  output array ends at that function whatever the entry contents `V` are.
-/
import proofs.«170616_j85985245266464_1_alg».proof.Proof.Gen.KernelIdeal.Frame
import proofs.«170616_j85985245266464_1_alg».proof.Proof.BodyGin
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row windows and the output move with the point, the weights and biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block row of the output is some point's. -/
theorem idx_onto : ∀ r : Fin 25, ∃ t : Fin cfg1.N, win1_6.index t = ![r.val, 0] :=
  (by decide +kernel : ∀ r : Fin 25, ∃ t : Fin grid1.N, win1_6.index t = ![r.val, 0])

/-- What the region leaves in its output array: the layer of the arrays as the region finds them. -/
abbrev out (c : Dev nD) : S50000x256.Idx → EReal :=
  layer (V c main_v18) (V c main_v28) (V c main_v29) (fun e => V c main_v31 (ix2 (0 : Fin 1) e))
    (V c main_v30) (fun e => V c main_v32 (ix2 (0 : Fin 1) e))

/-- What point `t` writes back is block `t` of `out`. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero origin]
  simp only [View.ld_unit_zero (S := S2000x256) origin, View.ld_unit_zero (S := S256x256) origin,
    View.ld_unit_zero (S := S1x256) origin, View.ld_unit_zero (S := S256x256) origin]
  obtain ⟨e00, e01, e10, e11, e20, e21, e30, e31, e40, e41, e50, e51, e60, e61⟩ := idx_facts t
  have hN : grid1.N = 25 := N_1
  have ht : t.val < grid1.N := t.isLt
  funext j
  obtain ⟨p, q, rfl⟩ : ∃ (p : Fin 2000) (q : Fin 256), j = ix2 p q := ⟨j 0, j 1, eq_ix2 j⟩
  have hp : p.val < 2000 := p.isLt
  refine (Body.gin1_apply (iblk1 V c 0 t) (iblk1 V c 1 t) (iblk1 V c 2 t) (iblk1 V c 3 t) (iblk1 V c 4 t)
    (iblk1 V c 5 t) p q).trans ?_
  have hn : t.val * 2000 + p.val < 50000 := by omega
  have he : ((cfg1.win 6).blk t).view.emb (ix2 p q) = ix2 (⟨t.val * 2000 + p.val, hn⟩ : Fin 50000) q := by
    funext a; apply Fin.ext
    match a with
    | ⟨0, _⟩ => show win1_6.index t (0 : Fin 2) * 2000 + 1 * p.val = t.val * 2000 + p.val; rw [e60]; omega
    | ⟨1, _⟩ => show win1_6.index t (1 : Fin 2) * 256 + 1 * q.val = q.val; rw [e61]; omega
  have h0 : ∀ l : Fin 256, iblk1 V c 0 t (ix2 p l) = V c main_v18 (ix2 (⟨t.val * 2000 + p.val, hn⟩ : Fin 50000) l) := fun l => by
    show V c main_v18 (((cfg1.win 0).blk t).view.emb (ix2 p l)) = _
    refine congrArg (V c main_v18) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 256 + 1 * l.val = l.val; rw [e01]; omega
  have h1 : ∀ l : Fin 256, iblk1 V c 1 t (ix2 p l) = V c main_v28 (ix2 (⟨t.val * 2000 + p.val, hn⟩ : Fin 50000) l) := fun l => by
    show V c main_v28 (((cfg1.win 1).blk t).view.emb (ix2 p l)) = _
    refine congrArg (V c main_v28) (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 256 + 1 * l.val = l.val; rw [e11]; omega
  have h2 : iblk1 V c 2 t = V c main_v29 := funext fun y => by
    show V c main_v29 (((cfg1.win 2).blk t).view.emb y) = _
    refine congrArg (V c main_v29) (funext fun a => Fin.ext ?_)
    match a with
    | ⟨0, _⟩ => show win1_2.index t (0 : Fin 2) * 256 + 1 * (y 0).val = (y 0).val; rw [e20]; omega
    | ⟨1, _⟩ => show win1_2.index t (1 : Fin 2) * 256 + 1 * (y 1).val = (y 1).val; rw [e21]; omega
  have h3 : iblk1 V c 3 t = V c main_v31 := funext fun y => by
    show V c main_v31 (((cfg1.win 3).blk t).view.emb y) = _
    refine congrArg (V c main_v31) (funext fun a => Fin.ext ?_)
    match a with
    | ⟨0, _⟩ => show win1_3.index t (0 : Fin 2) * 1 + 1 * (y 0).val = (y 0).val; rw [e30]; omega
    | ⟨1, _⟩ => show win1_3.index t (1 : Fin 2) * 256 + 1 * (y 1).val = (y 1).val; rw [e31]; omega
  have h4 : iblk1 V c 4 t = V c main_v30 := funext fun y => by
    show V c main_v30 (((cfg1.win 4).blk t).view.emb y) = _
    refine congrArg (V c main_v30) (funext fun a => Fin.ext ?_)
    match a with
    | ⟨0, _⟩ => show win1_4.index t (0 : Fin 2) * 256 + 1 * (y 0).val = (y 0).val; rw [e40]; omega
    | ⟨1, _⟩ => show win1_4.index t (1 : Fin 2) * 256 + 1 * (y 1).val = (y 1).val; rw [e41]; omega
  have h5 : iblk1 V c 5 t = V c main_v32 := funext fun y => by
    show V c main_v32 (((cfg1.win 5).blk t).view.emb y) = _
    refine congrArg (V c main_v32) (funext fun a => Fin.ext ?_)
    match a with
    | ⟨0, _⟩ => show win1_5.index t (0 : Fin 2) * 1 + 1 * (y 0).val = (y 0).val; rw [e50]; omega
    | ⟨1, _⟩ => show win1_5.index t (1 : Fin 2) * 256 + 1 * (y 1).val = (y 1).val; rw [e51]; omega
  show _ = out V c (((cfg1.win 6).blk t).view.emb (ix2 p q))
  rw [he, h2, h3, h4, h5]
  simp only [h0, h1]
  rfl

/-- An index of the output array is in point `t`'s block iff each coordinate is in the block's range on its axis. -/
theorem mem_blk (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v33).slice (win1_6.rect t)).set ↔ _
  rw [View.set_slice_whole, Rect.mem_set_unit]
  exact Iff.rfl

/-- The blocks tile the array: row `r` is in the block of point `r / 2000`. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 256 ≤ (i 1).val ∧ (i 1).val < win1_6.index t (1 : Fin 2) * 256 + 256
    omega

/-- The output array after the region: `out`. -/
theorem final (c : Dev nD) : (dat1 V c).arrAt 6 cfg1.N = out V c :=
  (dat1 V c).arrAt_eq_of_cover 6 (out V c) (fun t _ => flushed_eq V c t) (cover)

end Cert.KernelIdeal.Region1

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«170616_j85985245266464_1_alg».proof.Proof.LibColumn
import proofs.«170616_j85985245266464_1_alg».proof.Proof.LibLastAxis
import proofs.«170616_j85985245266464_1_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.BodyCls.lean ====
/-
  The classifier kernel body, read at an entry of the output block.

  The body forms the logits of a block of 2000 nodes — the first layer's block against one `[256, 40]` matrix plus
  the second layer's block against another, plus the bias row — and takes the log-softmax of every row. So entry
  `(p, q)` of the stored block is `logSoftmaxRow` of row `p` of the logits, and the logit `(p, d)` is the two sums over
  the 256 features plus the bias at `d` (the narrowing to a shorter float format is the identity here).
-/
import proofs.«170616_j85985245266464_1_alg».proof.Proof.Gen.KernelIdeal.Skeleton
import proofs.«170616_j85985245266464_1_alg».proof.Proof.Spec
import proofs.«170616_j85985245266464_1_alg».proof.Proof.LibLogSoftmax

noncomputable section

namespace Cert.KernelIdeal.Body

open Cert.KernelIdeal Cert.KernelIdeal.Gen Idealize.ShloMosaic Idealize.ShloMosaic.ValueIdx Cert.Gin Cert.LibRowMax

/-- The logits of a block, as the body computes them. -/
abbrev clsLogits (x0 x1 : FVec Ideal S2000x256 .f32) (x2 x3 : FVec Ideal S256x40 .bf16) (x4 : FVec Ideal S1x40 .f32) :
    FVec Ideal S2000x40 .f32 :=
  addf (addf
      (matmul dot_S2000x256_S256x40_S2000x40_1_0_0_1_n_n none
        (truncf .bf16 (shapeCast S2000x256 x0 shapeCasts_S2000x256_S2000x256) bitsLt_bf16_f32)
        (shapeCast S256x40 x2 shapeCasts_S256x40_S256x40) (constant S2000x40 .f32 0x00000000#32))
      (matmul dot_S2000x256_S256x40_S2000x40_1_0_0_1_n_n none
        (truncf .bf16 (shapeCast S2000x256 x1 shapeCasts_S2000x256_S2000x256) bitsLt_bf16_f32)
        (shapeCast S256x40 x3 shapeCasts_S256x40_S256x40) (constant S2000x40 .f32 0x00000000#32)))
    (broadcastTo S2000x40 (shapeCast S1x40 x4 shapeCasts_S1x40_S1x40) broadcasts_S1x40_S2000x40)

/-- The logit at node `p` of the block, class `d`. -/
theorem clsLogits_apply (x0 x1 : FVec Ideal S2000x256 .f32) (x2 x3 : FVec Ideal S256x40 .bf16) (x4 : FVec Ideal S1x40 .f32)
    (p : Fin 2000) (d : Fin 40) :
    clsLogits x0 x1 x2 x3 x4 (ix2 p d)
      = (∑ e : Fin 256, x0 (ix2 p e) * x2 (ix2 e d) + ∑ e : Fin 256, x1 (ix2 p e) * x3 (ix2 e d))
        + x4 (ix2 (0 : Fin 1) d) := by
  unfold clsLogits
  simp only [shapeCast_self]
  show (FloatOps.matmul (plainDims 2000 256 40 dot_S2000x256_S256x40_S2000x40_1_0_0_1_n_n_wf) none
          (truncf .bf16 x0 bitsLt_bf16_f32) x2 (constant ⟨2, ![2000, 40]⟩ .f32 0x00000000#32) (ix2 p d)
        + FloatOps.matmul (plainDims 2000 256 40 dot_S2000x256_S256x40_S2000x40_1_0_0_1_n_n_wf) none
          (truncf .bf16 x1 bitsLt_bf16_f32) x3 (constant ⟨2, ![2000, 40]⟩ .f32 0x00000000#32) (ix2 p d))
      + broadcastTo ⟨2, ![2000, 40]⟩ x4 broadcasts_S1x40_S2000x40 (ix2 p d) = _
  rw [matmul_plain_apply _ none (truncf .bf16 x0 bitsLt_bf16_f32) x2 p d,
    matmul_plain_apply _ none (truncf .bf16 x1 bitsLt_bf16_f32) x3 p d, broadcastTo_1b_ab_apply x4 _ p d]
  rfl

/-- The classifier body at `(p, q)`. -/
theorem cls_apply (x0 x1 : FVec Ideal S2000x256 .f32) (x2 x3 : FVec Ideal S256x40 .bf16) (x4 : FVec Ideal S1x40 .f32)
    (p : Fin 2000) (q : Fin 40) :
    k2_pay1 (F := Ideal) x0 x1 x2 x3 x4 (ix2 p q)
      = logSoftmaxRow (fun d => (∑ e : Fin 256, x0 (ix2 p e) * x2 (ix2 e d)
          + ∑ e : Fin 256, x1 (ix2 p e) * x3 (ix2 e d)) + x4 (ix2 (0 : Fin 1) d)) q := by
  unfold k2_pay1
  refine (LibLogSoftmax.vector_apply (clsLogits x0 x1 x2 x3 x4) reduces_S2000x40_S2000 (.inl rfl) rfl rfl
    shapeCasts_S2000_S2000x1 broadcasts_S2000x1_S2000x40 p q).trans ?_
  unfold logSoftmaxRow
  simp only [clsLogits_apply]

end Cert.KernelIdeal.Body

end
-- ==== Proof.Region2.lean ====
/-
  Region 2 of the program (the classifier): from blocks to the whole array.

  Point `t` of the 25 reads rows `2000·t … 2000·t + 1999` of the two layers' outputs, the whole of the two `[256, 40]`
  matrices and the bias row, and writes the same rows of the `[50000, 40]` result. Entry `(p, q)` of a block depends only
  on row `p` of the two row blocks, so point `t` writes back block `t` of ONE array, `classify` of the arrays as the
  region finds them, and the 25 blocks tile the rows: the result array ends at that function.
-/
import proofs.«170616_j85985245266464_1_alg».proof.Proof.Gen.KernelIdeal.Frame
import proofs.«170616_j85985245266464_1_alg».proof.Proof.BodyCls
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row windows and the output move with the point, the matrices and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the output is some point's. -/
theorem idx_onto : ∀ r : Fin 25, ∃ t : Fin cfg2.N, win2_5.index t = ![r.val, 0] :=
  (by decide +kernel : ∀ r : Fin 25, ∃ t : Fin grid2.N, win2_5.index t = ![r.val, 0])

/-- What the region leaves in its output array: the classifier of the arrays as the region finds them. -/
abbrev out (c : Dev nD) : S50000x40.Idx → EReal :=
  classify (V c main_v18) (V c main_v33) (V c main_v35) (V c main_v37) (fun d => V c main_v38 (ix2 (0 : Fin 1) d))

/-- What point `t` writes back is block `t` of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero origin]
  simp only [View.ld_unit_zero (S := S2000x256) origin, View.ld_unit_zero (S := S256x40) origin,
    View.ld_unit_zero (S := S1x40) origin]
  obtain ⟨e00, e01, e10, e11, e20, e21, e30, e31, e40, e41, e50, e51⟩ := idx_facts t
  have hN : grid2.N = 25 := N_2
  have ht : t.val < grid2.N := t.isLt
  funext j
  obtain ⟨p, q, rfl⟩ : ∃ (p : Fin 2000) (q : Fin 40), j = ix2 p q := ⟨j 0, j 1, eq_ix2 j⟩
  have hp : p.val < 2000 := p.isLt
  refine (Body.cls_apply (iblk2 V c 0 t) (iblk2 V c 1 t) (iblk2 V c 2 t) (iblk2 V c 3 t) (iblk2 V c 4 t) p q).trans ?_
  have hn : t.val * 2000 + p.val < 50000 := by omega
  have he : ((cfg2.win 5).blk t).view.emb (ix2 p q) = ix2 (⟨t.val * 2000 + p.val, hn⟩ : Fin 50000) q := by
    funext a; apply Fin.ext
    match a with
    | ⟨0, _⟩ => show win2_5.index t (0 : Fin 2) * 2000 + 1 * p.val = t.val * 2000 + p.val; rw [e50]; omega
    | ⟨1, _⟩ => show win2_5.index t (1 : Fin 2) * 40 + 1 * q.val = q.val; rw [e51]; omega
  have h0 : ∀ l : Fin 256, iblk2 V c 0 t (ix2 p l) = V c main_v18 (ix2 (⟨t.val * 2000 + p.val, hn⟩ : Fin 50000) l) := fun l => by
    show V c main_v18 (((cfg2.win 0).blk t).view.emb (ix2 p l)) = _
    refine congrArg (V c main_v18) (funext fun a => Fin.ext ?_)
    match a with
    | ⟨0, _⟩ => show win2_0.index t (0 : Fin 2) * 2000 + 1 * p.val = t.val * 2000 + p.val; rw [e00]; omega
    | ⟨1, _⟩ => show win2_0.index t (1 : Fin 2) * 256 + 1 * l.val = l.val; rw [e01]; omega
  have h1 : ∀ l : Fin 256, iblk2 V c 1 t (ix2 p l) = V c main_v33 (ix2 (⟨t.val * 2000 + p.val, hn⟩ : Fin 50000) l) := fun l => by
    show V c main_v33 (((cfg2.win 1).blk t).view.emb (ix2 p l)) = _
    refine congrArg (V c main_v33) (funext fun a => Fin.ext ?_)
    match a with
    | ⟨0, _⟩ => show win2_1.index t (0 : Fin 2) * 2000 + 1 * p.val = t.val * 2000 + p.val; rw [e10]; omega
    | ⟨1, _⟩ => show win2_1.index t (1 : Fin 2) * 256 + 1 * l.val = l.val; rw [e11]; omega
  have h2 : iblk2 V c 2 t = V c main_v35 := funext fun y => by
    show V c main_v35 (((cfg2.win 2).blk t).view.emb y) = _
    refine congrArg (V c main_v35) (funext fun a => Fin.ext ?_)
    match a with
    | ⟨0, _⟩ => show win2_2.index t (0 : Fin 2) * 256 + 1 * (y 0).val = (y 0).val; rw [e20]; omega
    | ⟨1, _⟩ => show win2_2.index t (1 : Fin 2) * 40 + 1 * (y 1).val = (y 1).val; rw [e21]; omega
  have h3 : iblk2 V c 3 t = V c main_v37 := funext fun y => by
    show V c main_v37 (((cfg2.win 3).blk t).view.emb y) = _
    refine congrArg (V c main_v37) (funext fun a => Fin.ext ?_)
    match a with
    | ⟨0, _⟩ => show win2_3.index t (0 : Fin 2) * 256 + 1 * (y 0).val = (y 0).val; rw [e30]; omega
    | ⟨1, _⟩ => show win2_3.index t (1 : Fin 2) * 40 + 1 * (y 1).val = (y 1).val; rw [e31]; omega
  have h4 : iblk2 V c 4 t = V c main_v38 := funext fun y => by
    show V c main_v38 (((cfg2.win 4).blk t).view.emb y) = _
    refine congrArg (V c main_v38) (funext fun a => Fin.ext ?_)
    match a with
    | ⟨0, _⟩ => show win2_4.index t (0 : Fin 2) * 1 + 1 * (y 0).val = (y 0).val; rw [e40]; omega
    | ⟨1, _⟩ => show win2_4.index t (1 : Fin 2) * 40 + 1 * (y 1).val = (y 1).val; rw [e41]; omega
  show _ = out V c (((cfg2.win 5).blk t).view.emb (ix2 p q))
  rw [he, h2, h3, h4]
  simp only [h0, h1]
  rfl

/-- An index of the output array is in point `t`'s block iff each coordinate is in the block's range on its axis. -/
theorem mem_blk (t : Fin cfg2.N) (i : S50000x40.Idx) :
    i ∈ ((cfg2.win 5).blk t).view.set ↔ ∀ a : Fin 2, win2_5.index t a * S2000x40.size a ≤ (i a).val
      ∧ (i a).val < win2_5.index t a * S2000x40.size a + S2000x40.size a := by
  show i ∈ ((View.whole main_v39).slice (win2_5.rect t)).set ↔ _
  rw [View.set_slice_whole, Rect.mem_set_unit]
  exact Iff.rfl

/-- The blocks tile the array: row `r` is in the block of point `r / 2000`. -/
theorem cover (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 40 ≤ (i 1).val ∧ (i 1).val < win2_5.index t (1 : Fin 2) * 40 + 40
    omega

/-- The result array after the region: `out`. -/
theorem final (c : Dev nD) : (dat2 V c).arrAt 5 cfg2.N = out V c :=
  (dat2 V c).arrAt_eq_of_cover 5 (out V c) (fun t _ => flushed_eq V c t) (cover)

end Cert.KernelIdeal.Region2

end
-- ==== Proof.KernelValue.lean ====
/-
  The kernel program's result array as one function of its arguments.

  The program is: host operations, the first layer's region, host operations, the second layer's region, host operations,
  the classifier's region. Between them every buffer holds what the generated frame names `W0 … W6`: the launch
  memory, then alternately "after a stretch of host operations" and "after a region" (a region's output array at what
  its blocks leave, everything else untouched). Walking the classifier's five operands back through these boundaries:
  the first layer's output `hidden1` is `layer` of the inputs and their neighbour sums; the second layer's output
  `hidden2` is `layer` of `hidden1` and ITS neighbour sums; the two `[256, 40]` matrices are the halves of the
  `[512, 40]` argument; and the result is `classify` of these (`result_eq`).
-/
import proofs.«170616_j85985245266464_1_alg».proof.Proof.Gen.KernelIdeal.Frame
import proofs.«170616_j85985245266464_1_alg».proof.Proof.KernelStages
import proofs.«170616_j85985245266464_1_alg».proof.Proof.Region0
import proofs.«170616_j85985245266464_1_alg».proof.Proof.Region1
import proofs.«170616_j85985245266464_1_alg».proof.Proof.Region2
import Idealize.ShloMosaic.Lib.ValueLayout

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.ValueIdx Cert.Gin
open Idealize.ShloMosaic.Pipeline (Dat)

variable (m : (ℓ : Loc nD τ sig) → Buf (Elt Ideal) ℓ) (ρ : Dev nD → PrngReg) (c : Dev nD)

/-- The first layer's output as a function of the arguments. -/
def hidden1 : S50000x256.Idx → EReal :=
  (layer (m ((c : Thread nD τ).loc main_arg0)) (Stage.agg128 (m ((c : Thread nD τ).loc main_arg0)) (Stage.srcOf (m ((c : Thread nD τ).loc main_arg1))) (Stage.dstOf (m ((c : Thread nD τ).loc main_arg1))))
      (m ((c : Thread nD τ).loc main_arg2)) (fun e => (m ((c : Thread nD τ).loc main_arg3)) (ix1 e)) (m ((c : Thread nD τ).loc main_arg4)) (fun e => (m ((c : Thread nD τ).loc main_arg5)) (ix1 e)))

/-- The second layer's output as a function of the arguments. -/
def hidden2 : S50000x256.Idx → EReal :=
  layer (hidden1 m c) (Stage.agg256 (hidden1 m c) (Stage.srcOf (m ((c : Thread nD τ).loc main_arg1))) (Stage.dstOf (m ((c : Thread nD τ).loc main_arg1))))
    (m ((c : Thread nD τ).loc main_arg6)) (fun e => (m ((c : Thread nD τ).loc main_arg7)) (ix1 e)) (m ((c : Thread nD τ).loc main_arg8)) (fun e => (m ((c : Thread nD τ).loc main_arg9)) (ix1 e))

/-- A bias laid out as a row, read at its one row, is the bias. -/
theorem bias_row {b : ℕ} (β : (⟨1, ![b]⟩ : Shape).Idx → EReal) (h : (⟨1, ![b]⟩ : Shape).ShapeCasts ⟨2, ![1, b]⟩) :
    (fun e : Fin b => shapeCast ⟨2, ![1, b]⟩ β h (ix2 (0 : Fin 1) e)) = fun e => β (ix1 e) :=
  funext fun e => shapeCast_a_1a_apply β h (0 : Fin 1) e

/-! ## The first region's entry and exit -/

/-- A buffer the first host stretch does not write is as launched when the first region is entered. -/
theorem W1_keep (r : Ref sig .tc) (h : r ∉ Stage.host0_W) :
    W1 m ρ c (Proc.devRef .tc r) = m ((c : Thread nD τ).loc r) :=
  Stage.host0_keep (W0 m ρ c) r h

theorem W1_agg : W1 m ρ c (Proc.devRef .tc main_v13)
    = Stage.agg128 (m ((c : Thread nD τ).loc main_arg0)) (Stage.srcOf (m ((c : Thread nD τ).loc main_arg1))) (Stage.dstOf (m ((c : Thread nD τ).loc main_arg1))) := Stage.host0_agg (W0 m ρ c)
theorem W1_src : W1 m ρ c (Proc.devRef .tc main_v1) = Stage.srcOf (m ((c : Thread nD τ).loc main_arg1)) := Stage.host0_src (W0 m ρ c)
theorem W1_dst : W1 m ρ c (Proc.devRef .tc main_v3) = Stage.dstOf (m ((c : Thread nD τ).loc main_arg1)) := Stage.host0_dst (W0 m ρ c)

/-- The first layer's output array when the first region is left. -/
theorem W2_hidden1 : W2 m ρ c (Proc.devRef .tc main_v18) = hidden1 m c := by
  refine (W2_arr m ρ c 6).trans ((Region0.final (V1 m ρ) c).trans ?_)
  unfold Region0.out hidden1
  dsimp only [V1, W1]
  rw [Stage.host0_keep (W0 m ρ c) main_arg0 (by decide), Stage.host0_agg, Stage.host0_W1, Stage.host0_W2, Stage.host0_b1,
    Stage.host0_b2, bias_row _ shapeCasts_S256_S1x256, bias_row _ shapeCasts_S256_S1x256]
  rfl

/-- A buffer that neither the first host stretch writes nor the first region stages is as launched after the region. -/
theorem W2_keep (r : Ref sig .tc) (h : r ∉ Stage.host0_W) (hne : ∀ w, Pipeline.arrRef spec0 w ≠ r) :
    W2 m ρ c (Proc.devRef .tc r) = m ((c : Thread nD τ).loc r) :=
  (W2_of_ne m ρ c r hne).trans (W1_keep m ρ c r h)

theorem W2_src : W2 m ρ c (Proc.devRef .tc main_v1) = Stage.srcOf (m ((c : Thread nD τ).loc main_arg1)) :=
  (W2_of_ne m ρ c main_v1 (by decide)).trans (W1_src m ρ c)
theorem W2_dst : W2 m ρ c (Proc.devRef .tc main_v3) = Stage.dstOf (m ((c : Thread nD τ).loc main_arg1)) :=
  (W2_of_ne m ρ c main_v3 (by decide)).trans (W1_dst m ρ c)

/-! ## The second region's entry and exit -/

theorem W3_hidden1 : W3 m ρ c (Proc.devRef .tc main_v18) = hidden1 m c :=
  (Stage.host1_keep (W2 m ρ c) main_v18 (by decide)).trans (W2_hidden1 m ρ c)

theorem W3_keep (r : Ref sig .tc) (h0 : r ∉ Stage.host0_W) (hne : ∀ w, Pipeline.arrRef spec0 w ≠ r) (h1 : r ∉ Stage.host1_W) :
    W3 m ρ c (Proc.devRef .tc r) = m ((c : Thread nD τ).loc r) :=
  (Stage.host1_keep (W2 m ρ c) r h1).trans (W2_keep m ρ c r h0 hne)

theorem W3_agg : W3 m ρ c (Proc.devRef .tc main_v28)
    = Stage.agg256 (hidden1 m c) (Stage.srcOf (m ((c : Thread nD τ).loc main_arg1))) (Stage.dstOf (m ((c : Thread nD τ).loc main_arg1))) := by
  refine (Stage.host1_agg (W2 m ρ c)).trans ?_
  rw [W2_hidden1, W2_src, W2_dst]

/-- The second layer's output array when the second region is left. -/
theorem W4_hidden2 : W4 m ρ c (Proc.devRef .tc main_v33) = hidden2 m c := by
  refine (W4_arr m ρ c 6).trans ((Region1.final (V3 m ρ) c).trans ?_)
  unfold Region1.out hidden2
  dsimp only [V3, W3]
  rw [Stage.host1_keep (W2 m ρ c) main_v18 (by decide), Stage.host1_agg, W2_hidden1, W2_src, W2_dst, Stage.host1_W1,
    Stage.host1_W2, Stage.host1_b1, Stage.host1_b2,
    W2_keep m ρ c main_arg6 (by decide) (by decide), W2_keep m ρ c main_arg7 (by decide) (by decide),
    W2_keep m ρ c main_arg8 (by decide) (by decide), W2_keep m ρ c main_arg9 (by decide) (by decide),
    bias_row _ shapeCasts_S256_S1x256, bias_row _ shapeCasts_S256_S1x256]
  rfl

set_option maxHeartbeats 2000000 in
/-- The first layer's output is an input window of the second region: unchanged by it. -/
theorem W4_hidden1 : W4 m ρ c (Proc.devRef .tc main_v18) = hidden1 m c :=
  calc W4 m ρ c (Proc.devRef .tc main_v18)
    _ = W3 m ρ c (Proc.devRef .tc main_v18) :=
        (W4_arr m ρ c 0).trans (((dat1 (V3 m ρ) c).arrAt_in 0 rfl _).trans (A_eq1 (V3 m ρ) c 0))
    _ = hidden1 m c := W3_hidden1 m ρ c

theorem W4_keep (r : Ref sig .tc) (h0 : r ∉ Stage.host0_W) (hne0 : ∀ w, Pipeline.arrRef spec0 w ≠ r) (h1 : r ∉ Stage.host1_W)
    (hne1 : ∀ w, Pipeline.arrRef spec1 w ≠ r) : W4 m ρ c (Proc.devRef .tc r) = m ((c : Thread nD τ).loc r) :=
  (W4_of_ne m ρ c r hne1).trans (W3_keep m ρ c r h0 hne0 h1)

/-! ## The classifier region -/

/-- The result array after the program. -/
theorem result_eq : W6 m ρ c (Proc.devRef .tc main_v39)
    = classify (hidden1 m c) (hidden2 m c)
        (extractStridedSlice S256x40 ![0, 0] (m ((c : Thread nD τ).loc main_arg10)) slices_S512x40_S256x40_0_0)
        (extractStridedSlice S256x40 ![256, 0] (m ((c : Thread nD τ).loc main_arg10)) slices_S512x40_S256x40_256_0)
        (fun d => (m ((c : Thread nD τ).loc main_arg11)) (ix1 d)) := by
  refine (W6_arr m ρ c 5).trans ((Region2.final (V5 m ρ) c).trans ?_)
  unfold Region2.out
  dsimp only [V5, W5]
  rw [Stage.host2_keep (W4 m ρ c) main_v18 (by decide), W4_hidden1, Stage.host2_keep (W4 m ρ c) main_v33 (by decide),
    W4_hidden2, Stage.host2_Wa, Stage.host2_Wb, Stage.host2_b,
    W4_keep m ρ c main_arg10 (by decide) (by decide) (by decide) (by decide),
    W4_keep m ρ c main_arg11 (by decide) (by decide) (by decide) (by decide), bias_row _ shapeCasts_S40_S1x40]
  rfl

end Cert.KernelIdeal.Value

end
-- ==== Proof.RefRun.lean ====
/-
  The reference program run as a straight line of host operations.

  The program is 80 host operations with no kernel launch. `ops` lists them in program order (the printed statements in
  builder form; the log-softmax function's operations stand at its call site over the call's buffers). It is cut
  into five stretches — neighbour sums of the inputs, first layer, neighbour sums of the first layer, second layer,
  classifier with log-softmax — so that later modules can read each stretch's result without ever forming the
  whole program's term: the buffer contents after a list of operations is a fold (`after`), and the fold over a
  concatenation is the fold over the second list from the fold over the first (`after_append`).
  `run_after`: every weakly fair execution terminates with every buffer at the fold over the launch contents.
-/
import proofs.«170616_j85985245266464_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 80 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    unary main_cst_1 main_v19 (broadcastInDim S50000x256 ![] bcast_S_S50000x256 : (⟨S_, .f32⟩ : BufTy).Contents (Elt F) → (⟨S50000x256, .f32⟩ : BufTy).Contents (Elt F)),
    binary main_v18 main_v19 main_v20 (maximumf : (⟨S50000x256, .f32⟩ : BufTy).Contents (Elt F) → (⟨S50000x256, .f32⟩ : BufTy).Contents (Elt F) → (⟨S50000x256, .f32⟩ : BufTy).Contents (Elt F)),
    binary main_v20 main_arg4 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg5 main_v22 (broadcastInDim S1x256 ![1] bcast_S256_S1x256_1 : (⟨S256, .f32⟩ : BufTy).Contents (Elt F) → (⟨S1x256, .f32⟩ : BufTy).Contents (Elt F)),
    unary main_v22 main_v23 (broadcastInDim S50000x256 ![0, 1] bcast_S1x256_S50000x256_0_1 : (⟨S1x256, .f32⟩ : BufTy).Contents (Elt F) → (⟨S50000x256, .f32⟩ : BufTy).Contents (Elt F)),
    binary main_v21 main_v23 main_v24 (addf : (⟨S50000x256, .f32⟩ : BufTy).Contents (Elt F) → (⟨S50000x256, .f32⟩ : BufTy).Contents (Elt F) → (⟨S50000x256, .f32⟩ : BufTy).Contents (Elt F)),
    nullary main_cst_2 (constant S_ .f32 0x00000000#32),
    unary main_cst_2 main_v25 (broadcastInDim S50000x256 ![] bcast_S_S50000x256 : (⟨S_, .f32⟩ : BufTy).Contents (Elt F) → (⟨S50000x256, .f32⟩ : BufTy).Contents (Elt F)),
    binary main_v24 main_v25 main_v26 (maximumf : (⟨S50000x256, .f32⟩ : BufTy).Contents (Elt F) → (⟨S50000x256, .f32⟩ : BufTy).Contents (Elt F) → (⟨S50000x256, .f32⟩ : BufTy).Contents (Elt F)),
    nullary main_c_3 (constantI S_ 32 0#32),
    unary main_c_3 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v26 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_5 (constant S_ .f32 0x00000000#32),
    unary main_cst_5 main_v34 (broadcastInDim S50000x256 ![] bcast_S_S50000x256 : (⟨S_, .f32⟩ : BufTy).Contents (Elt F) → (⟨S50000x256, .f32⟩ : BufTy).Contents (Elt F)),
    unary main_v3 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v26 main_v36 main_v37 (addf : (⟨S50000x256, .f32⟩ : BufTy).Contents (Elt F) → (⟨S50000x256, .f32⟩ : BufTy).Contents (Elt F) → (⟨S50000x256, .f32⟩ : BufTy).Contents (Elt F)),
    binary main_v37 main_arg6 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x00000000#32),
    unary main_cst_6 main_v42 (broadcastInDim S50000x256 ![] bcast_S_S50000x256 : (⟨S_, .f32⟩ : BufTy).Contents (Elt F) → (⟨S50000x256, .f32⟩ : BufTy).Contents (Elt F)),
    binary main_v41 main_v42 main_v43 (maximumf : (⟨S50000x256, .f32⟩ : BufTy).Contents (Elt F) → (⟨S50000x256, .f32⟩ : BufTy).Contents (Elt F) → (⟨S50000x256, .f32⟩ : BufTy).Contents (Elt F)),
    binary main_v43 main_arg8 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    nullary main_cst_7 (constant S_ .f32 0x00000000#32),
    unary main_cst_7 main_v48 (broadcastInDim S50000x256 ![] bcast_S_S50000x256 : (⟨S_, .f32⟩ : BufTy).Contents (Elt F) → (⟨S50000x256, .f32⟩ : BufTy).Contents (Elt F)),
    binary main_v47 main_v48 main_v49 (maximumf : (⟨S50000x256, .f32⟩ : BufTy).Contents (Elt F) → (⟨S50000x256, .f32⟩ : BufTy).Contents (Elt F) → (⟨S50000x256, .f32⟩ : BufTy).Contents (Elt F)),
    binary main_v26 main_v49 main_v50 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v50 main_arg10 main_v51 ((fun l r => Host.dotGeneral dot_S50000x512_S512x40_S50000x40_1_0_0_1_n_n none l r) : (⟨S50000x512, .f32⟩ : BufTy).Contents (Elt F) → (⟨S512x40, .f32⟩ : BufTy).Contents (Elt F) → (⟨S50000x40, .f32⟩ : BufTy).Contents (Elt F)),
    unary main_arg11 main_v52 (broadcastInDim S1x40 ![1] bcast_S40_S1x40_1 : (⟨S40, .f32⟩ : BufTy).Contents (Elt F) → (⟨S1x40, .f32⟩ : BufTy).Contents (Elt F)),
    unary main_v52 main_v53 (broadcastInDim S50000x40 ![0, 1] bcast_S1x40_S50000x40_0_1 : (⟨S1x40, .f32⟩ : BufTy).Contents (Elt F) → (⟨S50000x40, .f32⟩ : BufTy).Contents (Elt F)),
    binary main_v51 main_v53 main_v54 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call0_cst) (constant S_ .f32 0xFF800000#32),
    TRef.binary (TRef.of (T := ⟨S50000x40, .f32⟩) main_v54) (TRef.of (T := ⟨S_, .f32⟩) main_call0_cst) (TRef.of (T := ⟨S50000, .f32⟩) main_call0_v0) (fun x v => Host.reduce FloatOps.maximumf x v reducesTo_S50000x40_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf,
    TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x40, .f32⟩) main_call0_v4) (broadcastInDim S50000x40 ![0, 1] bcast_S50000x1_S50000x40_0_1),
    TRef.binary (TRef.of (T := ⟨S50000x40, .f32⟩) main_v54) (TRef.of (T := ⟨S50000x40, .f32⟩) main_call0_v4) (TRef.of (T := ⟨S50000x40, .f32⟩) main_call0_v5) subf,
    TRef.unary (TRef.of (T := ⟨S50000x40, .f32⟩) main_call0_v5) (TRef.of (T := ⟨S50000x40, .f32⟩) main_call0_v6) Host.exp,
    TRef.nullary (TRef.of (T := ⟨S_, .f32⟩) main_call0_cst_1) (constant S_ .f32 0x00000000#32),
    TRef.binary (TRef.of (T := ⟨S50000x40, .f32⟩) main_call0_v6) (TRef.of (T := ⟨S_, .f32⟩) main_call0_cst_1) (TRef.of (T := ⟨S50000, .f32⟩) main_call0_v7) (fun x v => Host.reduceAdd x v reducesTo_S50000x40_S50000_d1 h_S_),
    TRef.unary (TRef.of (T := ⟨S50000, .f32⟩) main_call0_v7) (TRef.of (T := ⟨S50000x1, .f32⟩) main_call0_v8) (broadcastInDim S50000x1 ![0] bcast_S50000_S50000x1_0),
    TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x40, .f32⟩) main_call0_v10) (broadcastInDim S50000x40 ![0, 1] bcast_S50000x1_S50000x40_0_1),
    TRef.binary (TRef.of (T := ⟨S50000x40, .f32⟩) main_call0_v5) (TRef.of (T := ⟨S50000x40, .f32⟩) main_call0_v10) (TRef.of (T := ⟨S50000x40, .f32⟩) main_v55) subf ]

/-- Operations 1 … 17: the neighbour sums of the input features: the edge list split into its source and destination rows, negative sources wrapped, the source rows gathered and added into the destination rows. -/
abbrev opsAgg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 18 … 32: the first layer: the features plus their neighbour sums through two affine layers, each clamped at zero. -/
abbrev opsMlp1 : List (HloOp τ sig (Elt F)) :=
  [ binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    unary main_cst_1 main_v19 (broadcastInDim S50000x256 ![] bcast_S_S50000x256 : (⟨S_, .f32⟩ : BufTy).Contents (Elt F) → (⟨S50000x256, .f32⟩ : BufTy).Contents (Elt F)),
    binary main_v18 main_v19 main_v20 (maximumf : (⟨S50000x256, .f32⟩ : BufTy).Contents (Elt F) → (⟨S50000x256, .f32⟩ : BufTy).Contents (Elt F) → (⟨S50000x256, .f32⟩ : BufTy).Contents (Elt F)),
    binary main_v20 main_arg4 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg5 main_v22 (broadcastInDim S1x256 ![1] bcast_S256_S1x256_1 : (⟨S256, .f32⟩ : BufTy).Contents (Elt F) → (⟨S1x256, .f32⟩ : BufTy).Contents (Elt F)),
    unary main_v22 main_v23 (broadcastInDim S50000x256 ![0, 1] bcast_S1x256_S50000x256_0_1 : (⟨S1x256, .f32⟩ : BufTy).Contents (Elt F) → (⟨S50000x256, .f32⟩ : BufTy).Contents (Elt F)),
    binary main_v21 main_v23 main_v24 (addf : (⟨S50000x256, .f32⟩ : BufTy).Contents (Elt F) → (⟨S50000x256, .f32⟩ : BufTy).Contents (Elt F) → (⟨S50000x256, .f32⟩ : BufTy).Contents (Elt F)),
    nullary main_cst_2 (constant S_ .f32 0x00000000#32),
    unary main_cst_2 main_v25 (broadcastInDim S50000x256 ![] bcast_S_S50000x256 : (⟨S_, .f32⟩ : BufTy).Contents (Elt F) → (⟨S50000x256, .f32⟩ : BufTy).Contents (Elt F)),
    binary main_v24 main_v25 main_v26 (maximumf : (⟨S50000x256, .f32⟩ : BufTy).Contents (Elt F) → (⟨S50000x256, .f32⟩ : BufTy).Contents (Elt F) → (⟨S50000x256, .f32⟩ : BufTy).Contents (Elt F)) ]

/-- Operations 33 … 45: the neighbour sums of the first layer's output, over the same edges. -/
abbrev opsAgg2 : List (HloOp τ sig (Elt F)) :=
  [ nullary main_c_3 (constantI S_ 32 0#32),
    unary main_c_3 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v26 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_5 (constant S_ .f32 0x00000000#32),
    unary main_cst_5 main_v34 (broadcastInDim S50000x256 ![] bcast_S_S50000x256 : (⟨S_, .f32⟩ : BufTy).Contents (Elt F) → (⟨S50000x256, .f32⟩ : BufTy).Contents (Elt F)),
    unary main_v3 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 46 … 60: the second layer. -/
abbrev opsMlp2 : List (HloOp τ sig (Elt F)) :=
  [ binary main_v26 main_v36 main_v37 (addf : (⟨S50000x256, .f32⟩ : BufTy).Contents (Elt F) → (⟨S50000x256, .f32⟩ : BufTy).Contents (Elt F) → (⟨S50000x256, .f32⟩ : BufTy).Contents (Elt F)),
    binary main_v37 main_arg6 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x00000000#32),
    unary main_cst_6 main_v42 (broadcastInDim S50000x256 ![] bcast_S_S50000x256 : (⟨S_, .f32⟩ : BufTy).Contents (Elt F) → (⟨S50000x256, .f32⟩ : BufTy).Contents (Elt F)),
    binary main_v41 main_v42 main_v43 (maximumf : (⟨S50000x256, .f32⟩ : BufTy).Contents (Elt F) → (⟨S50000x256, .f32⟩ : BufTy).Contents (Elt F) → (⟨S50000x256, .f32⟩ : BufTy).Contents (Elt F)),
    binary main_v43 main_arg8 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    nullary main_cst_7 (constant S_ .f32 0x00000000#32),
    unary main_cst_7 main_v48 (broadcastInDim S50000x256 ![] bcast_S_S50000x256 : (⟨S_, .f32⟩ : BufTy).Contents (Elt F) → (⟨S50000x256, .f32⟩ : BufTy).Contents (Elt F)),
    binary main_v47 main_v48 main_v49 (maximumf : (⟨S50000x256, .f32⟩ : BufTy).Contents (Elt F) → (⟨S50000x256, .f32⟩ : BufTy).Contents (Elt F) → (⟨S50000x256, .f32⟩ : BufTy).Contents (Elt F)) ]

/-- Operations 61 … 80: the two layers' outputs joined, the linear classifier, and the row-wise log-softmax. -/
abbrev opsCls : List (HloOp τ sig (Elt F)) :=
  [ binary main_v26 main_v49 main_v50 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v50 main_arg10 main_v51 ((fun l r => Host.dotGeneral dot_S50000x512_S512x40_S50000x40_1_0_0_1_n_n none l r) : (⟨S50000x512, .f32⟩ : BufTy).Contents (Elt F) → (⟨S512x40, .f32⟩ : BufTy).Contents (Elt F) → (⟨S50000x40, .f32⟩ : BufTy).Contents (Elt F)),
    unary main_arg11 main_v52 (broadcastInDim S1x40 ![1] bcast_S40_S1x40_1 : (⟨S40, .f32⟩ : BufTy).Contents (Elt F) → (⟨S1x40, .f32⟩ : BufTy).Contents (Elt F)),
    unary main_v52 main_v53 (broadcastInDim S50000x40 ![0, 1] bcast_S1x40_S50000x40_0_1 : (⟨S1x40, .f32⟩ : BufTy).Contents (Elt F) → (⟨S50000x40, .f32⟩ : BufTy).Contents (Elt F)),
    binary main_v51 main_v53 main_v54 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call0_cst) (constant S_ .f32 0xFF800000#32),
    TRef.binary (TRef.of (T := ⟨S50000x40, .f32⟩) main_v54) (TRef.of (T := ⟨S_, .f32⟩) main_call0_cst) (TRef.of (T := ⟨S50000, .f32⟩) main_call0_v0) (fun x v => Host.reduce FloatOps.maximumf x v reducesTo_S50000x40_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf,
    TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x40, .f32⟩) main_call0_v4) (broadcastInDim S50000x40 ![0, 1] bcast_S50000x1_S50000x40_0_1),
    TRef.binary (TRef.of (T := ⟨S50000x40, .f32⟩) main_v54) (TRef.of (T := ⟨S50000x40, .f32⟩) main_call0_v4) (TRef.of (T := ⟨S50000x40, .f32⟩) main_call0_v5) subf,
    TRef.unary (TRef.of (T := ⟨S50000x40, .f32⟩) main_call0_v5) (TRef.of (T := ⟨S50000x40, .f32⟩) main_call0_v6) Host.exp,
    TRef.nullary (TRef.of (T := ⟨S_, .f32⟩) main_call0_cst_1) (constant S_ .f32 0x00000000#32),
    TRef.binary (TRef.of (T := ⟨S50000x40, .f32⟩) main_call0_v6) (TRef.of (T := ⟨S_, .f32⟩) main_call0_cst_1) (TRef.of (T := ⟨S50000, .f32⟩) main_call0_v7) (fun x v => Host.reduceAdd x v reducesTo_S50000x40_S50000_d1 h_S_),
    TRef.unary (TRef.of (T := ⟨S50000, .f32⟩) main_call0_v7) (TRef.of (T := ⟨S50000x1, .f32⟩) main_call0_v8) (broadcastInDim S50000x1 ![0] bcast_S50000_S50000x1_0),
    TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x40, .f32⟩) main_call0_v10) (broadcastInDim S50000x40 ![0, 1] bcast_S50000x1_S50000x40_0_1),
    TRef.binary (TRef.of (T := ⟨S50000x40, .f32⟩) main_call0_v5) (TRef.of (T := ⟨S50000x40, .f32⟩) main_call0_v10) (TRef.of (T := ⟨S50000x40, .f32⟩) main_v55) subf ]

/-- The program is its five stretches in a row. -/
theorem ops_split : (ops : List (HloOp τ sig (Elt F))) = opsAgg1 ++ (opsMlp1 ++ (opsAgg2 ++ (opsMlp2 ++ opsCls))) := rfl

/-- The fold over two lists in a row. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 32000000 in
/-- From any memory with zero counters every weakly fair execution of the program terminates, and every buffer ends at
    the fold of the 80 operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.RefStages.lean ====
/-
  The reference program read stretch by stretch.

  Each of the five stretches of the operation list writes its own buffers and leaves every other buffer alone, and
  the one buffer later stretches need from it holds a named function of what the stretch found:
  the neighbour sums (`agg128`, `agg256`: gather the rows at the edges' sources — a negative source wrapped by the
  node count —, add them into the rows at the destinations), a layer as array operations (`layerOps128`,
  `layerOps256`), and the classifier with its log-softmax (`clsOps`). Chaining the five gives the program's result as
  one composed function of its arguments (`result_eq`), and every argument as launched (`arg_kept`).
-/
import proofs.«170616_j85985245266464_1_alg».proof.Proof.RefRun
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The values -/

/-- The edges' sources: row 0 of the edge list. -/
def srcOf (ei : IVec S2x800000 32) : IVec S800000 32 :=
  shapeCast S800000 (extractStridedSlice S1x800000 ![0, 0] ei slices_S2x800000_S1x800000_0_0) shapeCasts_S1x800000_S800000
/-- The edges' destinations: row 1 of the edge list. -/
def dstOf (ei : IVec S2x800000 32) : IVec S800000 32 :=
  shapeCast S800000 (extractStridedSlice S1x800000 ![1, 0] ei slices_S2x800000_S1x800000_1_0) shapeCasts_S1x800000_S800000
/-- The sources as a column of gather indices, a negative one wrapped by the node count. -/
def wrapCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour sums of a `[50000, 128]` array over the edge list: the rows at the (wrapped) sources gathered and added
    into the rows at the destinations, from zero. -/
def agg128 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x (wrapCol src))

/-- The neighbour sums of a `[50000, 256]` array over the edge list: the rows at the (wrapped) sources gathered and added
    into the rows at the destinations, from zero. -/
def agg256 (x : FVec Ideal S50000x256 .f32) (src dst : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 x (wrapCol src))

/-- One layer as the program's array operations: the sum of features and neighbour sums through two affine layers with
    a clamp at zero (128 input features). -/
def layerOps128 (h agg : FVec Ideal S50000x128 .f32) (W1 : FVec Ideal S128x256 .f32) (b1 : FVec Ideal S256 .f32)
    (W2 : FVec Ideal S256x256 .f32) (b2 : FVec Ideal S256 .f32) : FVec Ideal S50000x256 .f32 :=
  maximumf (addf (Host.dotGeneral dot_S50000x256_S256x256_S50000x256_1_0_0_1_n_n none
      (maximumf (addf (Host.dotGeneral dot_S50000x128_S128x256_S50000x256_1_0_0_1_n_n none (addf h agg) W1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32))) W2)
      (broadcastInDim S50000x256 ![0, 1] bcast_S1x256_S50000x256_0_1 (broadcastInDim S1x256 ![1] bcast_S256_S1x256_1 b2)))
    (broadcastInDim S50000x256 ![] bcast_S_S50000x256 (constant (F := Ideal) S_ .f32 0x00000000#32))

/-- One layer as the program's array operations: the sum of features and neighbour sums through two affine layers with
    a clamp at zero (256 input features). -/
def layerOps256 (h agg : FVec Ideal S50000x256 .f32) (W1 : FVec Ideal S256x256 .f32) (b1 : FVec Ideal S256 .f32)
    (W2 : FVec Ideal S256x256 .f32) (b2 : FVec Ideal S256 .f32) : FVec Ideal S50000x256 .f32 :=
  maximumf (addf (Host.dotGeneral dot_S50000x256_S256x256_S50000x256_1_0_0_1_n_n none
      (maximumf (addf (Host.dotGeneral dot_S50000x256_S256x256_S50000x256_1_0_0_1_n_n none (addf h agg) W1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32))) W2)
      (broadcastInDim S50000x256 ![0, 1] bcast_S1x256_S50000x256_0_1 (broadcastInDim S1x256 ![1] bcast_S256_S1x256_1 b2)))
    (broadcastInDim S50000x256 ![] bcast_S_S50000x256 (constant (F := Ideal) S_ .f32 0x00000000#32))

/-- The logits as the program's array operations: the two layers' outputs joined side by side against the `[512, 40]`
    matrix, plus the bias. -/
def logitOps (h1 h2 : FVec Ideal S50000x256 .f32) (W : FVec Ideal S512x40 .f32) (b : FVec Ideal S40 .f32) :
    FVec Ideal S50000x40 .f32 :=
  addf (Host.dotGeneral dot_S50000x512_S512x40_S50000x40_1_0_0_1_n_n none
      (concatenate S50000x512 1 [⟨S50000x256, h1⟩, ⟨S50000x256, h2⟩] concatenates_S50000x256_S50000x256_S50000x512_d1) W)
    (broadcastInDim S50000x40 ![0, 1] bcast_S1x40_S50000x40_0_1 (broadcastInDim S1x40 ![1] bcast_S40_S1x40_1 b))

/-- The row maxima, kept as a column and spread over the classes. -/
def rowMaxOps (x : FVec Ideal S50000x40 .f32) : FVec Ideal S50000x40 .f32 :=
  broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce FloatOps.maximumf x (constant (F := Ideal) S_ .f32 0xFF800000#32) reducesTo_S50000x40_S50000_d1 h_S_)))

/-- The row-wise log-softmax as the program's array operations. -/
def logSoftmaxOps (x : FVec Ideal S50000x40 .f32) : FVec Ideal S50000x40 .f32 :=
  subf (subf x (rowMaxOps x))
    (broadcastInDim S50000x40 ![0, 1] bcast_S50000x1_S50000x40_0_1 (Host.log (broadcastInDim S50000x1 ![0] bcast_S50000_S50000x1_0
      (Host.reduceAdd (Host.exp (subf x (rowMaxOps x))) (constant (F := Ideal) S_ .f32 0x00000000#32)
        reducesTo_S50000x40_S50000_d1 h_S_))))

/-- The classifier stretch's result. -/
def clsOps (h1 h2 : FVec Ideal S50000x256 .f32) (W : FVec Ideal S512x40 .f32) (b : FVec Ideal S40 .f32) :
    FVec Ideal S50000x40 .f32 :=
  logSoftmaxOps (logitOps h1 h2 W b)

/-! ## What each stretch writes, and what it leaves -/

/-- The buffers `opsAgg1` writes. -/
abbrev opsAgg1_W : List (Ref sig .tc) := [main_v0, main_v1, main_v2, main_v3, main_c, main_v4, main_v5, main_c_0, main_v6, main_v7, main_v8, main_v9, main_v10, main_cst, main_v11, main_v12, main_v13]
theorem opsAgg1_writes : (opsAgg1 : List (HloOp τ sig (Elt Ideal))).Forall fun op =>
    op.writes ⊆ (opsAgg1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem opsAgg1_keep (V : Valuation τ sig (Elt Ideal)) (r : Ref sig .tc) (h : r ∉ opsAgg1_W) :
    after opsAgg1 V (Proc.devRef .tc r) = V (Proc.devRef .tc r) :=
  after_of_writes_sub opsAgg1 V opsAgg1_writes h

/-- The buffers `opsMlp1` writes. -/
abbrev opsMlp1_W : List (Ref sig .tc) := [main_v14, main_v15, main_v16, main_v17, main_v18, main_cst_1, main_v19, main_v20, main_v21, main_v22, main_v23, main_v24, main_cst_2, main_v25, main_v26]
theorem opsMlp1_writes : (opsMlp1 : List (HloOp τ sig (Elt Ideal))).Forall fun op =>
    op.writes ⊆ (opsMlp1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem opsMlp1_keep (V : Valuation τ sig (Elt Ideal)) (r : Ref sig .tc) (h : r ∉ opsMlp1_W) :
    after opsMlp1 V (Proc.devRef .tc r) = V (Proc.devRef .tc r) :=
  after_of_writes_sub opsMlp1 V opsMlp1_writes h

/-- The buffers `opsAgg2` writes. -/
abbrev opsAgg2_W : List (Ref sig .tc) := [main_c_3, main_v27, main_v28, main_c_4, main_v29, main_v30, main_v31, main_v32, main_v33, main_cst_5, main_v34, main_v35, main_v36]
theorem opsAgg2_writes : (opsAgg2 : List (HloOp τ sig (Elt Ideal))).Forall fun op =>
    op.writes ⊆ (opsAgg2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem opsAgg2_keep (V : Valuation τ sig (Elt Ideal)) (r : Ref sig .tc) (h : r ∉ opsAgg2_W) :
    after opsAgg2 V (Proc.devRef .tc r) = V (Proc.devRef .tc r) :=
  after_of_writes_sub opsAgg2 V opsAgg2_writes h

/-- The buffers `opsMlp2` writes. -/
abbrev opsMlp2_W : List (Ref sig .tc) := [main_v37, main_v38, main_v39, main_v40, main_v41, main_cst_6, main_v42, main_v43, main_v44, main_v45, main_v46, main_v47, main_cst_7, main_v48, main_v49]
theorem opsMlp2_writes : (opsMlp2 : List (HloOp τ sig (Elt Ideal))).Forall fun op =>
    op.writes ⊆ (opsMlp2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem opsMlp2_keep (V : Valuation τ sig (Elt Ideal)) (r : Ref sig .tc) (h : r ∉ opsMlp2_W) :
    after opsMlp2 V (Proc.devRef .tc r) = V (Proc.devRef .tc r) :=
  after_of_writes_sub opsMlp2 V opsMlp2_writes h

/-- The buffers `opsCls` writes. -/
abbrev opsCls_W : List (Ref sig .tc) := [main_v50, main_v51, main_v52, main_v53, main_v54, main_call0_cst, main_call0_v0, main_call0_cst_0, main_call0_v1, main_call0_v2, main_call0_v3, main_call0_v4, main_call0_v5, main_call0_v6, main_call0_cst_1, main_call0_v7, main_call0_v8, main_call0_v9, main_call0_v10, main_v55]
theorem opsCls_writes : (opsCls : List (HloOp τ sig (Elt Ideal))).Forall fun op =>
    op.writes ⊆ (opsCls_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- Any other buffer is as before. -/
theorem opsCls_keep (V : Valuation τ sig (Elt Ideal)) (r : Ref sig .tc) (h : r ∉ opsCls_W) :
    after opsCls V (Proc.devRef .tc r) = V (Proc.devRef .tc r) :=
  after_of_writes_sub opsCls V opsCls_writes h

section Lists

variable {F : FTy → Type} [FloatOps F]

/-- The classifier stretch's first five operations: the logits. -/
abbrev opsLogit : List (HloOp τ sig (Elt F)) :=
  [ binary main_v26 main_v49 main_v50 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v50 main_arg10 main_v51 ((fun l r => Host.dotGeneral dot_S50000x512_S512x40_S50000x40_1_0_0_1_n_n none l r) : (⟨S50000x512, .f32⟩ : BufTy).Contents (Elt F) → (⟨S512x40, .f32⟩ : BufTy).Contents (Elt F) → (⟨S50000x40, .f32⟩ : BufTy).Contents (Elt F)),
    unary main_arg11 main_v52 (broadcastInDim S1x40 ![1] bcast_S40_S1x40_1 : (⟨S40, .f32⟩ : BufTy).Contents (Elt F) → (⟨S1x40, .f32⟩ : BufTy).Contents (Elt F)),
    unary main_v52 main_v53 (broadcastInDim S50000x40 ![0, 1] bcast_S1x40_S50000x40_0_1 : (⟨S1x40, .f32⟩ : BufTy).Contents (Elt F) → (⟨S50000x40, .f32⟩ : BufTy).Contents (Elt F)),
    binary main_v51 main_v53 main_v54 (addf : (⟨S50000x40, .f32⟩ : BufTy).Contents (Elt F) → (⟨S50000x40, .f32⟩ : BufTy).Contents (Elt F) → (⟨S50000x40, .f32⟩ : BufTy).Contents (Elt F)) ]
/-- Its last fifteen: the log-softmax function's operations at its call site. -/
abbrev opsSoftmax : List (HloOp τ sig (Elt F)) :=
  [ TRef.nullary (TRef.of (T := ⟨S_, .f32⟩) main_call0_cst) (constant S_ .f32 0xFF800000#32),
    TRef.binary (TRef.of (T := ⟨S50000x40, .f32⟩) main_v54) (TRef.of (T := ⟨S_, .f32⟩) main_call0_cst) (TRef.of (T := ⟨S50000, .f32⟩) main_call0_v0) (fun x v => Host.reduce FloatOps.maximumf x v reducesTo_S50000x40_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf,
    TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x40, .f32⟩) main_call0_v4) (broadcastInDim S50000x40 ![0, 1] bcast_S50000x1_S50000x40_0_1),
    TRef.binary (TRef.of (T := ⟨S50000x40, .f32⟩) main_v54) (TRef.of (T := ⟨S50000x40, .f32⟩) main_call0_v4) (TRef.of (T := ⟨S50000x40, .f32⟩) main_call0_v5) subf,
    TRef.unary (TRef.of (T := ⟨S50000x40, .f32⟩) main_call0_v5) (TRef.of (T := ⟨S50000x40, .f32⟩) main_call0_v6) Host.exp,
    TRef.nullary (TRef.of (T := ⟨S_, .f32⟩) main_call0_cst_1) (constant S_ .f32 0x00000000#32),
    TRef.binary (TRef.of (T := ⟨S50000x40, .f32⟩) main_call0_v6) (TRef.of (T := ⟨S_, .f32⟩) main_call0_cst_1) (TRef.of (T := ⟨S50000, .f32⟩) main_call0_v7) (fun x v => Host.reduceAdd x v reducesTo_S50000x40_S50000_d1 h_S_),
    TRef.unary (TRef.of (T := ⟨S50000, .f32⟩) main_call0_v7) (TRef.of (T := ⟨S50000x1, .f32⟩) main_call0_v8) (broadcastInDim S50000x1 ![0] bcast_S50000_S50000x1_0),
    TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x40, .f32⟩) main_call0_v10) (broadcastInDim S50000x40 ![0, 1] bcast_S50000x1_S50000x40_0_1),
    TRef.binary (TRef.of (T := ⟨S50000x40, .f32⟩) main_call0_v5) (TRef.of (T := ⟨S50000x40, .f32⟩) main_call0_v10) (TRef.of (T := ⟨S50000x40, .f32⟩) main_v55) subf ]
theorem opsCls_split : (opsCls : List (HloOp τ sig (Elt F))) = opsLogit ++ opsSoftmax := rfl

end Lists

/-! ## Each stretch's results -/

section Results

variable (V : Valuation τ sig (Elt Ideal))

theorem agg1_src : after opsAgg1 V (Proc.devRef .tc main_v1) = srcOf (V (Proc.devRef .tc main_arg1)) := by
  unfold opsAgg1; after_results <;> rfl
theorem agg1_dst : after opsAgg1 V (Proc.devRef .tc main_v3) = dstOf (V (Proc.devRef .tc main_arg1)) := by
  unfold opsAgg1; after_results <;> rfl
theorem agg1_out : after opsAgg1 V (Proc.devRef .tc main_v13)
    = agg128 (V (Proc.devRef .tc main_arg0)) (srcOf (V (Proc.devRef .tc main_arg1))) (dstOf (V (Proc.devRef .tc main_arg1))) := by
  unfold opsAgg1; after_results <;> rfl

theorem mlp1_out : after opsMlp1 V (Proc.devRef .tc main_v26)
    = layerOps128 (V (Proc.devRef .tc main_arg0)) (V (Proc.devRef .tc main_v13)) (V (Proc.devRef .tc main_arg2))
        (V (Proc.devRef .tc main_arg3)) (V (Proc.devRef .tc main_arg4)) (V (Proc.devRef .tc main_arg5)) := by
  unfold opsMlp1; after_results <;> rfl

theorem agg2_out : after opsAgg2 V (Proc.devRef .tc main_v36)
    = agg256 (V (Proc.devRef .tc main_v26)) (V (Proc.devRef .tc main_v1)) (V (Proc.devRef .tc main_v3)) := by
  unfold opsAgg2; after_results <;> rfl

theorem mlp2_out : after opsMlp2 V (Proc.devRef .tc main_v49)
    = layerOps256 (V (Proc.devRef .tc main_v26)) (V (Proc.devRef .tc main_v36)) (V (Proc.devRef .tc main_arg6))
        (V (Proc.devRef .tc main_arg7)) (V (Proc.devRef .tc main_arg8)) (V (Proc.devRef .tc main_arg9)) := by
  unfold opsMlp2; after_results <;> rfl

theorem logit_out : after opsLogit V (Proc.devRef .tc main_v54)
    = logitOps (V (Proc.devRef .tc main_v26)) (V (Proc.devRef .tc main_v49)) (V (Proc.devRef .tc main_arg10))
        (V (Proc.devRef .tc main_arg11)) := by
  unfold opsLogit; after_results <;> rfl

/-! The log-softmax function's operations are written over typed references: each reads and writes its buffers through
    the value's own type. Reading a buffer through its typed reference (`rd`), each operation's result is its
    function of the operands' readings, and nothing else is touched. -/

/-- The contents of a typed reference's buffer, at the value's type. -/
def rd {T : BufTy} (x : TRef sig T) (G : Valuation τ sig (Elt Ideal)) : T.Contents (Elt Ideal) :=
  x.ofBuf (G (Proc.devRef .tc x.ref))

/-- A value written through a buffer's type and read back through it is the value. -/
theorem ofBuf_toBuf {T : BufTy} (x : TRef sig T) (v : T.Contents (Elt Ideal)) : x.ofBuf (x.toBuf v) = v := by
  unfold TRef.ofBuf TRef.toBuf
  rw [cast_cast]
  exact cast_eq _ _

theorem rd_nullary {Ty : BufTy} (y : TRef sig Ty) (v : Ty.Contents (Elt Ideal)) (G : Valuation τ sig (Elt Ideal)) :
    rd y ((TRef.nullary (τ := τ) y v).result G) = v := by
  unfold rd TRef.nullary
  rw [nullary_result]
  exact ofBuf_toBuf y v
theorem rd_nullary_ne {Ty Tz : BufTy} (y : TRef sig Ty) (v : Ty.Contents (Elt Ideal)) (G : Valuation τ sig (Elt Ideal))
    (z : TRef sig Tz) (h : z.ref ≠ y.ref) : rd z ((TRef.nullary (τ := τ) y v).result G) = rd z G := by
  unfold rd TRef.nullary
  rw [nullary_result_ne (h := h)]

theorem rd_unary {Tx Ty : BufTy} (x : TRef sig Tx) (y : TRef sig Ty) (f : Tx.Contents (Elt Ideal) → Ty.Contents (Elt Ideal))
    (G : Valuation τ sig (Elt Ideal)) : rd y ((TRef.unary (τ := τ) x y f).result G) = f (rd x G) := by
  unfold rd TRef.unary
  rw [unary_result]
  exact ofBuf_toBuf y _
theorem rd_unary_ne {Tx Ty Tz : BufTy} (x : TRef sig Tx) (y : TRef sig Ty) (f : Tx.Contents (Elt Ideal) → Ty.Contents (Elt Ideal))
    (G : Valuation τ sig (Elt Ideal)) (z : TRef sig Tz) (h : z.ref ≠ y.ref) :
    rd z ((TRef.unary (τ := τ) x y f).result G) = rd z G := by
  unfold rd TRef.unary
  rw [unary_result_ne (h := h)]

theorem rd_binary {Ta Tb Ty : BufTy} (a : TRef sig Ta) (b : TRef sig Tb) (y : TRef sig Ty)
    (f : Ta.Contents (Elt Ideal) → Tb.Contents (Elt Ideal) → Ty.Contents (Elt Ideal)) (G : Valuation τ sig (Elt Ideal)) :
    rd y ((TRef.binary (τ := τ) a b y f).result G) = f (rd a G) (rd b G) := by
  unfold rd TRef.binary
  rw [binary_result]
  exact ofBuf_toBuf y _
theorem rd_binary_ne {Ta Tb Ty Tz : BufTy} (a : TRef sig Ta) (b : TRef sig Tb) (y : TRef sig Ty)
    (f : Ta.Contents (Elt Ideal) → Tb.Contents (Elt Ideal) → Ty.Contents (Elt Ideal)) (G : Valuation τ sig (Elt Ideal))
    (z : TRef sig Tz) (h : z.ref ≠ y.ref) : rd z ((TRef.binary (τ := τ) a b y f).result G) = rd z G := by
  unfold rd TRef.binary
  rw [binary_result_ne (h := h)]

set_option maxHeartbeats 4000000 in
/-- The log-softmax stretch, read through the typed references. -/
theorem softmax_rd : rd (TRef.of (T := ⟨S50000x40, .f32⟩) main_v55) (after opsSoftmax V)
    = logSoftmaxOps (rd (TRef.of (T := ⟨S50000x40, .f32⟩) main_v54) V) := by
  unfold opsSoftmax logSoftmaxOps rowMaxOps
  simp (disch := decide) only [after_cons, after_nil, rd_nullary, rd_unary, rd_binary, rd_nullary_ne, rd_unary_ne,
    rd_binary_ne]

theorem softmax_out : after opsSoftmax V (Proc.devRef .tc main_v55) = logSoftmaxOps (V (Proc.devRef .tc main_v54)) :=
  softmax_rd V

theorem cls_out : after opsCls V (Proc.devRef .tc main_v55)
    = clsOps (V (Proc.devRef .tc main_v26)) (V (Proc.devRef .tc main_v49)) (V (Proc.devRef .tc main_arg10))
        (V (Proc.devRef .tc main_arg11)) := by
  rw [opsCls_split, after_append, softmax_out, logit_out]
  rfl

end Results

end Cert.ReferenceIdeal.Hand

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.RefValue.lean ====
/-
  The reference program's result, read entry by entry.

  * A layer as array operations is `layer`: the host's affine layer with clamp, twice (`layerOps128_eq`, `layerOps256_eq`).
  * The logits: the contraction over the 512 joined features splits into the sum over the first 256 (the first
    layer's output against rows `0 … 255` of the matrix) plus the sum over the last 256 (the second layer's output
    against rows `256 … 511`) — a finite sum over `Fin (256 + 256)` cut in two, which needs no finiteness of the
    summands (`cat_sum`, `logitOps_apply`).
  * The log-softmax operations at an entry are `logSoftmaxRow` of the row (`clsOps_apply`).
  * The five stretches chained: the result buffer after the whole program is `clsOps` of the two layers of the
    arguments, and every argument is as launched (`result_eq`, `arg_kept`).
-/
import proofs.«170616_j85985245266464_1_alg».proof.Proof.RefStages
import proofs.«170616_j85985245266464_1_alg».proof.Proof.Spec
import proofs.«170616_j85985245266464_1_alg».proof.Proof.LibDense
import proofs.«170616_j85985245266464_1_alg».proof.Proof.LibLogSoftmax
import proofs.«170616_j85985245266464_1_alg».proof.Proof.LibStack
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Gin Cert.LibRowMax

/-- The shape of one half of the classifier's matrix. -/
abbrev S256x40 : Shape := ⟨2, ![256, 40]⟩

/-! ## The layers -/

theorem layerOps128_eq (h agg : FVec Ideal S50000x128 .f32) (W1 : FVec Ideal S128x256 .f32) (b1 : FVec Ideal S256 .f32)
    (W2 : FVec Ideal S256x256 .f32) (b2 : FVec Ideal S256 .f32) :
    layerOps128 h agg W1 b1 W2 b2 = layer h agg W1 (fun e => b1 (ix1 e)) W2 (fun e => b2 (ix1 e)) := by
  funext i
  obtain ⟨p, q, rfl⟩ : ∃ (p : Fin 50000) (q : Fin 256), i = ix2 p q := ⟨i 0, i 1, eq_ix2 i⟩
  rw [layer_ix2]
  unfold layerOps128 layerAt mlp dense
  refine (LibDense.host_dense_apply dot_S50000x256_S256x256_S50000x256_1_0_0_1_n_n
    dot_S50000x256_S256x256_S50000x256_1_0_0_1_n_n_wf rfl _ W2 b2 bcast_S256_S1x256_1 bcast_S1x256_S50000x256_0_1
    bcast_S_S50000x256 p q).trans ?_
  refine congrArg (fun f : Fin 256 → EReal => max (∑ e : Fin 256, f e * W2 (ix2 e q) + b2 (ix1 q)) zeroWord)
    (funext fun e => ?_)
  exact LibDense.host_dense_apply dot_S50000x128_S128x256_S50000x256_1_0_0_1_n_n
    dot_S50000x128_S128x256_S50000x256_1_0_0_1_n_n_wf rfl (addf h agg) W1 b1 bcast_S256_S1x256_1
    bcast_S1x256_S50000x256_0_1 bcast_S_S50000x256 p e

theorem layerOps256_eq (h agg : FVec Ideal S50000x256 .f32) (W1 : FVec Ideal S256x256 .f32) (b1 : FVec Ideal S256 .f32)
    (W2 : FVec Ideal S256x256 .f32) (b2 : FVec Ideal S256 .f32) :
    layerOps256 h agg W1 b1 W2 b2 = layer h agg W1 (fun e => b1 (ix1 e)) W2 (fun e => b2 (ix1 e)) := by
  funext i
  obtain ⟨p, q, rfl⟩ : ∃ (p : Fin 50000) (q : Fin 256), i = ix2 p q := ⟨i 0, i 1, eq_ix2 i⟩
  rw [layer_ix2]
  unfold layerOps256 layerAt mlp dense
  refine (LibDense.host_dense_apply dot_S50000x256_S256x256_S50000x256_1_0_0_1_n_n
    dot_S50000x256_S256x256_S50000x256_1_0_0_1_n_n_wf rfl _ W2 b2 bcast_S256_S1x256_1 bcast_S1x256_S50000x256_0_1
    bcast_S_S50000x256 p q).trans ?_
  refine congrArg (fun f : Fin 256 → EReal => max (∑ e : Fin 256, f e * W2 (ix2 e q) + b2 (ix1 q)) zeroWord)
    (funext fun e => ?_)
  exact LibDense.host_dense_apply dot_S50000x256_S256x256_S50000x256_1_0_0_1_n_n
    dot_S50000x256_S256x256_S50000x256_1_0_0_1_n_n_wf rfl (addf h agg) W1 b1 bcast_S256_S1x256_1
    bcast_S1x256_S50000x256_0_1 bcast_S_S50000x256 p e

/-! ## The classifier -/

/-- The contraction over the joined features is the sum of the two halves' contractions. -/
theorem cat_sum (h1 h2 : FVec Ideal S50000x256 .f32) (W : FVec Ideal S512x40 .f32)
    (hs0 : S512x40.Slices ![0, 0] S256x40) (hs1 : S512x40.Slices ![256, 0] S256x40) (p : Fin 50000) (d : Fin 40) :
    ∑ e : Fin 512, concatenate S50000x512 1 [⟨S50000x256, h1⟩, ⟨S50000x256, h2⟩]
        concatenates_S50000x256_S50000x256_S50000x512_d1 (ix2 p e) * W (ix2 e d)
      = ∑ e : Fin 256, h1 (ix2 p e) * extractStridedSlice S256x40 ![0, 0] W hs0 (ix2 e d)
        + ∑ e : Fin 256, h2 (ix2 p e) * extractStridedSlice S256x40 ![256, 0] W hs1 (ix2 e d) := by
  refine (Fin.sum_univ_add (a := 256) (b := 256) (fun e : Fin 512 =>
    concatenate S50000x512 1 [⟨S50000x256, h1⟩, ⟨S50000x256, h2⟩]
      concatenates_S50000x256_S50000x256_S50000x512_d1 (ix2 p e) * W (ix2 e d))).trans ?_
  refine congrArg₂ (· + ·) (Finset.sum_congr rfl fun e _ => ?_) (Finset.sum_congr rfl fun e _ => ?_)
  · exact congrArg₂ (· * ·)
      (LibStack.beside_left h1 h2 concatenates_S50000x256_S50000x256_S50000x512_d1 p e (Fin.castAdd 256 e) rfl)
      (slice2_axis0_apply 0 W hs0 e d (Fin.castAdd 256 e) (by show e.val = 0 + e.val; omega)).symm
  · exact congrArg₂ (· * ·)
      (LibStack.beside_right h1 h2 concatenates_S50000x256_S50000x256_S50000x512_d1 p e (Fin.natAdd 256 e)
        (by show 256 + e.val = e.val + 256; omega))
      (slice2_axis0_apply 256 W hs1 e d (Fin.natAdd 256 e) rfl).symm

/-- The logits at node `p`, class `d`. -/
theorem logitOps_apply (h1 h2 : FVec Ideal S50000x256 .f32) (W : FVec Ideal S512x40 .f32) (b : FVec Ideal S40 .f32)
    (hs0 : S512x40.Slices ![0, 0] S256x40) (hs1 : S512x40.Slices ![256, 0] S256x40) (p : Fin 50000) (d : Fin 40) :
    logitOps h1 h2 W b (ix2 p d)
      = logits h1 h2 (extractStridedSlice S256x40 ![0, 0] W hs0) (extractStridedSlice S256x40 ![256, 0] W hs1)
          (fun d => b (ix1 d)) p d := by
  unfold logitOps logits
  show FloatOps.dotGeneral (plainDims 50000 512 40 dot_S50000x512_S512x40_S50000x40_1_0_0_1_n_n_wf) none _
        (concatenate S50000x512 1 [⟨S50000x256, h1⟩, ⟨S50000x256, h2⟩] concatenates_S50000x256_S50000x256_S50000x512_d1)
        W (ix2 p d)
      + broadcastInDim S50000x40 ![0, 1] bcast_S1x40_S50000x40_0_1
          (broadcastInDim S1x40 ![1] bcast_S40_S1x40_1 b) (ix2 p d) = _
  rw [dotGeneral_plain_apply _ none _ _ W p d, broadcastInDim_1b_ab_apply _ bcast_S1x40_S50000x40_0_1 p d,
    broadcastInDim_b_1b_apply b bcast_S40_S1x40_1 (0 : Fin 1) d, cat_sum h1 h2 W hs0 hs1 p d]

/-- The classifier stretch's result at node `p`, class `q`. -/
theorem clsOps_apply (h1 h2 : FVec Ideal S50000x256 .f32) (W : FVec Ideal S512x40 .f32) (b : FVec Ideal S40 .f32)
    (hs0 : S512x40.Slices ![0, 0] S256x40) (hs1 : S512x40.Slices ![256, 0] S256x40) (p : Fin 50000) (q : Fin 40) :
    clsOps h1 h2 W b (ix2 p q)
      = classifyAt h1 h2 (extractStridedSlice S256x40 ![0, 0] W hs0) (extractStridedSlice S256x40 ![256, 0] W hs1)
          (fun d => b (ix1 d)) p q := by
  unfold clsOps logSoftmaxOps rowMaxOps
  refine (LibLogSoftmax.host_apply (logitOps h1 h2 W b) reducesTo_S50000x40_S50000_d1 (by decide) h_S_ bcast_S_S50000
    bcast_S50000_S50000x1_0 bcast_S50000x1_S50000x40_0_1 p q).trans ?_
  unfold classifyAt logSoftmaxRow
  simp only [logitOps_apply h1 h2 W b hs0 hs1]

/-- The classifier stretch's result as an array. -/
theorem clsOps_eq (h1 h2 : FVec Ideal S50000x256 .f32) (W : FVec Ideal S512x40 .f32) (b : FVec Ideal S40 .f32)
    (hs0 : S512x40.Slices ![0, 0] S256x40) (hs1 : S512x40.Slices ![256, 0] S256x40) :
    clsOps h1 h2 W b
      = classify h1 h2 (extractStridedSlice S256x40 ![0, 0] W hs0) (extractStridedSlice S256x40 ![256, 0] W hs1)
          (fun d => b (ix1 d)) := by
  funext i
  obtain ⟨p, q, rfl⟩ : ∃ (p : Fin 50000) (q : Fin 40), i = ix2 p q := ⟨i 0, i 1, eq_ix2 i⟩
  rw [classify_ix2]
  exact clsOps_apply h1 h2 W b hs0 hs1 p q

/-! ## The five stretches in a row -/

section Chain

variable (V : Valuation τ sig (Elt Ideal))

/-- A buffer none of the five stretches writes is as launched. -/
theorem kept (r : Ref sig .tc) (h1 : r ∉ opsAgg1_W) (h2 : r ∉ opsMlp1_W) (h3 : r ∉ opsAgg2_W) (h4 : r ∉ opsMlp2_W)
    (h5 : r ∉ opsCls_W) : after ops V (Proc.devRef .tc r) = V (Proc.devRef .tc r) := by
  rw [ops_split, after_append, after_append, after_append, after_append, opsCls_keep _ r h5, opsMlp2_keep _ r h4,
    opsAgg2_keep _ r h3, opsMlp1_keep _ r h2, opsAgg1_keep _ r h1]

/-- The first layer's output, once written, is what the first two stretches leave. -/
theorem layer1_after : after opsMlp1 (after opsAgg1 V) (Proc.devRef .tc main_v26)
    = layerOps128 (V (Proc.devRef .tc main_arg0)) (agg128 (V (Proc.devRef .tc main_arg0)) (srcOf (V (Proc.devRef .tc main_arg1))) (dstOf (V (Proc.devRef .tc main_arg1)))) (V (Proc.devRef .tc main_arg2)) (V (Proc.devRef .tc main_arg3)) (V (Proc.devRef .tc main_arg4)) (V (Proc.devRef .tc main_arg5)) := by
  rw [mlp1_out, agg1_out, opsAgg1_keep V main_arg0 (by decide), opsAgg1_keep V main_arg2 (by decide),
    opsAgg1_keep V main_arg3 (by decide), opsAgg1_keep V main_arg4 (by decide), opsAgg1_keep V main_arg5 (by decide)]

/-- The program's result buffer after all 80 operations. -/
theorem result_eq : after ops V (Proc.devRef .tc main_v55)
    = clsOps
        (layerOps128 (V (Proc.devRef .tc main_arg0)) (agg128 (V (Proc.devRef .tc main_arg0)) (srcOf (V (Proc.devRef .tc main_arg1))) (dstOf (V (Proc.devRef .tc main_arg1)))) (V (Proc.devRef .tc main_arg2)) (V (Proc.devRef .tc main_arg3)) (V (Proc.devRef .tc main_arg4)) (V (Proc.devRef .tc main_arg5)))
        (layerOps256
          (layerOps128 (V (Proc.devRef .tc main_arg0)) (agg128 (V (Proc.devRef .tc main_arg0)) (srcOf (V (Proc.devRef .tc main_arg1))) (dstOf (V (Proc.devRef .tc main_arg1)))) (V (Proc.devRef .tc main_arg2)) (V (Proc.devRef .tc main_arg3)) (V (Proc.devRef .tc main_arg4)) (V (Proc.devRef .tc main_arg5)))
          (agg256
            (layerOps128 (V (Proc.devRef .tc main_arg0)) (agg128 (V (Proc.devRef .tc main_arg0)) (srcOf (V (Proc.devRef .tc main_arg1))) (dstOf (V (Proc.devRef .tc main_arg1)))) (V (Proc.devRef .tc main_arg2)) (V (Proc.devRef .tc main_arg3)) (V (Proc.devRef .tc main_arg4)) (V (Proc.devRef .tc main_arg5)))
            (srcOf (V (Proc.devRef .tc main_arg1))) (dstOf (V (Proc.devRef .tc main_arg1))))
          (V (Proc.devRef .tc main_arg6)) (V (Proc.devRef .tc main_arg7)) (V (Proc.devRef .tc main_arg8)) (V (Proc.devRef .tc main_arg9)))
        (V (Proc.devRef .tc main_arg10)) (V (Proc.devRef .tc main_arg11)) := by
  rw [ops_split, after_append, after_append, after_append, after_append, cls_out]
  -- the classifier stretch's four operands, each walked back to where it was written
  rw [opsMlp2_keep _ main_v26 (by decide), opsAgg2_keep _ main_v26 (by decide), layer1_after,
    mlp2_out, opsAgg2_keep _ main_v26 (by decide), layer1_after, agg2_out, layer1_after,
    opsMlp1_keep _ main_v1 (by decide), agg1_src, opsMlp1_keep _ main_v3 (by decide), agg1_dst]
  rw [opsAgg2_keep _ main_arg6 (by decide), opsMlp1_keep _ main_arg6 (by decide), opsAgg1_keep _ main_arg6 (by decide),
    opsAgg2_keep _ main_arg7 (by decide), opsMlp1_keep _ main_arg7 (by decide), opsAgg1_keep _ main_arg7 (by decide),
    opsAgg2_keep _ main_arg8 (by decide), opsMlp1_keep _ main_arg8 (by decide), opsAgg1_keep _ main_arg8 (by decide),
    opsAgg2_keep _ main_arg9 (by decide), opsMlp1_keep _ main_arg9 (by decide), opsAgg1_keep _ main_arg9 (by decide)]
  rw [opsMlp2_keep _ main_arg10 (by decide), opsAgg2_keep _ main_arg10 (by decide), opsMlp1_keep _ main_arg10 (by decide),
    opsAgg1_keep _ main_arg10 (by decide),
    opsMlp2_keep _ main_arg11 (by decide), opsAgg2_keep _ main_arg11 (by decide), opsMlp1_keep _ main_arg11 (by decide),
    opsAgg1_keep _ main_arg11 (by decide)]

end Chain

end Cert.ReferenceIdeal.Hand

end
-- ==== Proof.lean ====
/-
  The certificate of a two-layer graph isomorphism network with a linear classifier and a row-wise log-softmax:
  an implementation with three kernels among host operations against a plain host implementation.

  Both programs compute the same function of their twelve arguments on the extended reals. The neighbour sums (a
  gather along the edges' sources and a scatter-add into their destinations) are the same host operations in both and
  are never opened. A layer is two affine maps with a clamp at zero applied to every node's row; the kernel does it
  on blocks of 2000 rows, the reference on the whole array, and since a row of the output depends only on the same
  row of the inputs the blocks assemble to the reference's array. The classifier contracts the two layers' outputs,
  side by side, with a `[512, 40]` matrix: the reference joins the outputs and contracts once over 512 features,
  the kernel contracts each output with its half of the matrix and adds — a finite sum cut in two, which holds for
  any extended reals. Narrowing to a shorter float format is the identity here, and the minus infinity a row's
  maximum starts from (joined once more by the reference) changes nothing. No finiteness is used: the precondition
  is never opened.
-/
import proofs.«170616_j85985245266464_1_alg».proof.Defs
import proofs.«170616_j85985245266464_1_alg».proof.Proof.Gen.Kernel
import proofs.«170616_j85985245266464_1_alg».proof.Proof.Gen.Kernel.Skeleton
import proofs.«170616_j85985245266464_1_alg».proof.Proof.Gen.Kernel.Launch
import proofs.«170616_j85985245266464_1_alg».proof.Proof.Gen.Kernel.Points
import proofs.«170616_j85985245266464_1_alg».proof.Proof.Gen.Kernel.Frame
import proofs.«170616_j85985245266464_1_alg».proof.Proof.Gen.KernelIdeal
import proofs.«170616_j85985245266464_1_alg».proof.Proof.Gen.KernelIdeal.Skeleton
import proofs.«170616_j85985245266464_1_alg».proof.Proof.Gen.KernelIdeal.Launch
import proofs.«170616_j85985245266464_1_alg».proof.Proof.Gen.KernelIdeal.Points
import proofs.«170616_j85985245266464_1_alg».proof.Proof.Gen.KernelIdeal.Frame
import proofs.«170616_j85985245266464_1_alg».proof.Proof.Gen.ReferenceIdeal
import proofs.«170616_j85985245266464_1_alg».proof.Proof.Gen.Pre_finite_inputs
import proofs.«170616_j85985245266464_1_alg».proof.Proof.KernelRun
import proofs.«170616_j85985245266464_1_alg».proof.Proof.KernelValue
import proofs.«170616_j85985245266464_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
open Idealize.ShloMosaic.ValueIdx Cert.Gin

/-! ## The two programs' neighbour sums are one function -/

theorem srcOf_eq (ei : IVec ⟨2, ![2, 800000]⟩ 32) : Cert.ReferenceIdeal.Hand.srcOf ei = Cert.KernelIdeal.Stage.srcOf ei := rfl
theorem dstOf_eq (ei : IVec ⟨2, ![2, 800000]⟩ 32) : Cert.ReferenceIdeal.Hand.dstOf ei = Cert.KernelIdeal.Stage.dstOf ei := rfl
theorem agg128_eq (x : FVec Ideal ⟨2, ![50000, 128]⟩ .f32) (src dst : IVec ⟨1, ![800000]⟩ 32) :
    Cert.ReferenceIdeal.Hand.agg128 x src dst = Cert.KernelIdeal.Stage.agg128 x src dst := rfl
theorem agg256_eq (x : FVec Ideal ⟨2, ![50000, 256]⟩ .f32) (src dst : IVec ⟨1, ![800000]⟩ 32) :
    Cert.ReferenceIdeal.Hand.agg256 x src dst = Cert.KernelIdeal.Stage.agg256 x src dst := rfl

/-! ## The claims -/

theorem frame_p : Cert.frame_Kernel := fun m ρ _ => Cert.Kernel.Gen.frame m ρ
theorem frame_pi : Cert.frame_KernelIdeal := fun m ρ _ => Cert.KernelIdeal.Gen.frame m ρ

/-- The reference runs, and its arguments end as launched: none of the 80 operations writes one. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept _ Cert.ReferenceIdeal.main_arg0 (by decide) (by decide) (by decide) (by decide) (by decide)),
     (h c Cert.ReferenceIdeal.main_arg1).trans (Cert.ReferenceIdeal.Hand.kept _ Cert.ReferenceIdeal.main_arg1 (by decide) (by decide) (by decide) (by decide) (by decide)),
     (h c Cert.ReferenceIdeal.main_arg2).trans (Cert.ReferenceIdeal.Hand.kept _ Cert.ReferenceIdeal.main_arg2 (by decide) (by decide) (by decide) (by decide) (by decide)),
     (h c Cert.ReferenceIdeal.main_arg3).trans (Cert.ReferenceIdeal.Hand.kept _ Cert.ReferenceIdeal.main_arg3 (by decide) (by decide) (by decide) (by decide) (by decide)),
     (h c Cert.ReferenceIdeal.main_arg4).trans (Cert.ReferenceIdeal.Hand.kept _ Cert.ReferenceIdeal.main_arg4 (by decide) (by decide) (by decide) (by decide) (by decide)),
     (h c Cert.ReferenceIdeal.main_arg5).trans (Cert.ReferenceIdeal.Hand.kept _ Cert.ReferenceIdeal.main_arg5 (by decide) (by decide) (by decide) (by decide) (by decide)),
     (h c Cert.ReferenceIdeal.main_arg6).trans (Cert.ReferenceIdeal.Hand.kept _ Cert.ReferenceIdeal.main_arg6 (by decide) (by decide) (by decide) (by decide) (by decide)),
     (h c Cert.ReferenceIdeal.main_arg7).trans (Cert.ReferenceIdeal.Hand.kept _ Cert.ReferenceIdeal.main_arg7 (by decide) (by decide) (by decide) (by decide) (by decide)),
     (h c Cert.ReferenceIdeal.main_arg8).trans (Cert.ReferenceIdeal.Hand.kept _ Cert.ReferenceIdeal.main_arg8 (by decide) (by decide) (by decide) (by decide) (by decide)),
     (h c Cert.ReferenceIdeal.main_arg9).trans (Cert.ReferenceIdeal.Hand.kept _ Cert.ReferenceIdeal.main_arg9 (by decide) (by decide) (by decide) (by decide) (by decide)),
     (h c Cert.ReferenceIdeal.main_arg10).trans (Cert.ReferenceIdeal.Hand.kept _ Cert.ReferenceIdeal.main_arg10 (by decide) (by decide) (by decide) (by decide) (by decide)),
     (h c Cert.ReferenceIdeal.main_arg11).trans (Cert.ReferenceIdeal.Hand.kept _ Cert.ReferenceIdeal.main_arg11 (by decide) (by decide) (by decide) (by decide) (by decide))⟩)
    (Cert.ReferenceIdeal.Hand.run_after (F := Ideal) m ρ)

theorem preserves : Cert.preserves_Kernel_KernelIdeal := trivial

/-- From memories agreeing on the arguments both programs run and end with the same result array: the kernel's is
    `classify` of the two `layer`s of the arguments (read off its regions' blocks), the reference's the same function
    (its five stretches read entry by entry), the neighbour sums being literally the same host operations. -/
theorem algebraic : Cert.algebraic_KernelIdeal_ReferenceIdeal := by
  intro m ρ m' ρ' _ hagree
  refine ⟨fun c => Cert.KernelIdeal.Gen.W6 m ρ c (Proc.devRef .tc Cert.KernelIdeal.main_v39), Cert.KernelIdeal.Named.run (F := Ideal) m ρ, ?_⟩
  refine (θ_run Cert.ReferenceIdeal.defs _ _).mono (fun _ h c =>
    ⟨(h c Cert.ReferenceIdeal.main_v55).trans ?_,
     (h c Cert.ReferenceIdeal.main_arg0).trans (Cert.ReferenceIdeal.Hand.kept _ Cert.ReferenceIdeal.main_arg0 (by decide) (by decide) (by decide) (by decide) (by decide)),
     (h c Cert.ReferenceIdeal.main_arg1).trans (Cert.ReferenceIdeal.Hand.kept _ Cert.ReferenceIdeal.main_arg1 (by decide) (by decide) (by decide) (by decide) (by decide)),
     (h c Cert.ReferenceIdeal.main_arg2).trans (Cert.ReferenceIdeal.Hand.kept _ Cert.ReferenceIdeal.main_arg2 (by decide) (by decide) (by decide) (by decide) (by decide)),
     (h c Cert.ReferenceIdeal.main_arg3).trans (Cert.ReferenceIdeal.Hand.kept _ Cert.ReferenceIdeal.main_arg3 (by decide) (by decide) (by decide) (by decide) (by decide)),
     (h c Cert.ReferenceIdeal.main_arg4).trans (Cert.ReferenceIdeal.Hand.kept _ Cert.ReferenceIdeal.main_arg4 (by decide) (by decide) (by decide) (by decide) (by decide)),
     (h c Cert.ReferenceIdeal.main_arg5).trans (Cert.ReferenceIdeal.Hand.kept _ Cert.ReferenceIdeal.main_arg5 (by decide) (by decide) (by decide) (by decide) (by decide)),
     (h c Cert.ReferenceIdeal.main_arg6).trans (Cert.ReferenceIdeal.Hand.kept _ Cert.ReferenceIdeal.main_arg6 (by decide) (by decide) (by decide) (by decide) (by decide)),
     (h c Cert.ReferenceIdeal.main_arg7).trans (Cert.ReferenceIdeal.Hand.kept _ Cert.ReferenceIdeal.main_arg7 (by decide) (by decide) (by decide) (by decide) (by decide)),
     (h c Cert.ReferenceIdeal.main_arg8).trans (Cert.ReferenceIdeal.Hand.kept _ Cert.ReferenceIdeal.main_arg8 (by decide) (by decide) (by decide) (by decide) (by decide)),
     (h c Cert.ReferenceIdeal.main_arg9).trans (Cert.ReferenceIdeal.Hand.kept _ Cert.ReferenceIdeal.main_arg9 (by decide) (by decide) (by decide) (by decide) (by decide)),
     (h c Cert.ReferenceIdeal.main_arg10).trans (Cert.ReferenceIdeal.Hand.kept _ Cert.ReferenceIdeal.main_arg10 (by decide) (by decide) (by decide) (by decide) (by decide)),
     (h c Cert.ReferenceIdeal.main_arg11).trans (Cert.ReferenceIdeal.Hand.kept _ Cert.ReferenceIdeal.main_arg11 (by decide) (by decide) (by decide) (by decide) (by decide))⟩)
    (Cert.ReferenceIdeal.Hand.run_after (F := Ideal) m' ρ')
  obtain ⟨a0, a1, a2, a3, a4, a5, a6, a7, a8, a9, a10, a11⟩ := hagree c
  show after Cert.ReferenceIdeal.Hand.ops (launchContents m' c) (Proc.devRef .tc Cert.ReferenceIdeal.main_v55)
    = Cert.KernelIdeal.Gen.W6 m ρ c (Proc.devRef .tc Cert.KernelIdeal.main_v39)
  rw [Cert.ReferenceIdeal.Hand.result_eq, Cert.KernelIdeal.Value.result_eq]
  rw [show launchContents m' c (Proc.devRef .tc Cert.ReferenceIdeal.main_arg0) = _ from a0,
    show launchContents m' c (Proc.devRef .tc Cert.ReferenceIdeal.main_arg1) = _ from a1,
    show launchContents m' c (Proc.devRef .tc Cert.ReferenceIdeal.main_arg2) = _ from a2,
    show launchContents m' c (Proc.devRef .tc Cert.ReferenceIdeal.main_arg3) = _ from a3,
    show launchContents m' c (Proc.devRef .tc Cert.ReferenceIdeal.main_arg4) = _ from a4,
    show launchContents m' c (Proc.devRef .tc Cert.ReferenceIdeal.main_arg5) = _ from a5,
    show launchContents m' c (Proc.devRef .tc Cert.ReferenceIdeal.main_arg6) = _ from a6,
    show launchContents m' c (Proc.devRef .tc Cert.ReferenceIdeal.main_arg7) = _ from a7,
    show launchContents m' c (Proc.devRef .tc Cert.ReferenceIdeal.main_arg8) = _ from a8,
    show launchContents m' c (Proc.devRef .tc Cert.ReferenceIdeal.main_arg9) = _ from a9,
    show launchContents m' c (Proc.devRef .tc Cert.ReferenceIdeal.main_arg10) = _ from a10,
    show launchContents m' c (Proc.devRef .tc Cert.ReferenceIdeal.main_arg11) = _ from a11]
  rw [Cert.ReferenceIdeal.Hand.clsOps_eq _ _ _ _ Cert.KernelIdeal.Facts₀.slices_S512x40_S256x40_0_0 Cert.KernelIdeal.Facts₀.slices_S512x40_S256x40_256_0,
    Cert.ReferenceIdeal.Hand.layerOps256_eq, Cert.ReferenceIdeal.Hand.layerOps128_eq, agg256_eq, agg128_eq, srcOf_eq, dstOf_eq]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
